-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x1 .f32) (main_arg4 : FVec F S1 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x64 : Shape := ⟨2, ![1, 64]⟩
abbrev S1x1 : Shape := ⟨2, ![1, 1]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S1700000x64 : Shape := ⟨2, ![1700000, 64]⟩

abbrev nBuf : Space → Nat
  | .hbm => 60
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x64, .f32⟩
  | .hbm, ⟨29, _⟩ => ⟨S1x1, .f32⟩
  | .hbm, ⟨30, _⟩ => ⟨S100000x64, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x64, .f32⟩
  | .hbm, ⟨40, _⟩ => ⟨S_, .f32⟩
  | .hbm, ⟨41, _⟩ => ⟨S100000x64, .f32⟩
  | .hbm, ⟨42, _⟩ => ⟨S1700000x1, .i32⟩
  | .hbm, ⟨43, _⟩ => ⟨S100000x64, .f32⟩
  | .hbm, ⟨44, _⟩ => ⟨S100000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x1, .f32⟩
  | .hbm, ⟨54, _⟩ => ⟨S_, .f32⟩
  | .hbm, ⟨55, _⟩ => ⟨S100000x1, .f32⟩
  | .hbm, ⟨56, _⟩ => ⟨S1700000x1, .i32⟩
  | .hbm, ⟨57, _⟩ => ⟨S100000x1, .f32⟩
  | .hbm, ⟨58, _⟩ => ⟨S100000x1, .f32⟩
  | .hbm, ⟨59, _⟩ => ⟨S100000, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x1, .f32⟩
  | .local _ .vmem, ⟨4, _⟩ => ⟨S2000x1, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S64x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S2000x1, .f32⟩
  | .local _ .vmem, ⟨18, _⟩ => ⟨S2000x1, .f32⟩
  | .local _ .vmem, ⟨19, _⟩ => ⟨S1x1, .f32⟩
  | .local _ .vmem, ⟨20, _⟩ => ⟨S2000x1, .f32⟩
  | .local _ .vmem, ⟨21, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S64_S1x64 : S64.ShapeCasts S1x64
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S100000x1_S100000 : S100000x1.ShapeCasts S100000
  scatter_S100000_S1700000x1_S1700000_n_0_0_1_wf : ScatterDims.WF S100000 S1700000x1 S1700000 [] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x1_S2000x1_1_0_0_1_n_n_wf : DotDims.WF S2000x64 S64x1 S2000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .f32 = 32 ∨ (Rect.block (s := S100000x1) S2000x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S100000x1.size a
  hwx2_0 : ∀ i : grid2.Coords, EltTy.bits .f32 = 32 ∨ (Rect.block (s := S100000x1) S2000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S2000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x1, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x1, .f32⟩
  | .hbm, ⟨112, _⟩ => ⟨S1700000x1, .f32⟩
  | .hbm, ⟨113, _⟩ => ⟨S1700000x1, .f32⟩
  | .hbm, ⟨114, _⟩ => ⟨S_, .f32⟩
  | .hbm, ⟨115, _⟩ => ⟨S100000x1, .f32⟩
  | .hbm, ⟨116, _⟩ => ⟨S1700000x1, .i32⟩
  | .hbm, ⟨117, _⟩ => ⟨S100000x1, .f32⟩
  | .hbm, ⟨118, _⟩ => ⟨S1x1, .f32⟩
  | .hbm, ⟨119, _⟩ => ⟨S100000x1, .f32⟩
  | .hbm, ⟨120, _⟩ => ⟨S100000x1, .f32⟩
  | .hbm, ⟨121, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_19 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KernelRun.lean ====
/-
  The run of the kernel program, read over the extended reals, with its RESULT named: every weakly fair execution terminates, nothing
  faulting, with the result array at the contents the fold through @main's segments leaves there (the last host stretch
  applied to the third region's exit contents) and the argument arrays as launched. The segments, their thread states
  and the launch are the frame's own; only the last reading differs — the final state is read at the result buffer as
  well as at the arguments.
-/
import proofs.«148809_j14516989460622_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result array at the fold's contents and the arguments
    as launched. -/
theorem run_result : θ_run defs (onTc (τ := τ) (main (F := F))) ⟨m, fun _ => 0, ρ⟩ (fun r => ∀ c : Dev nD,
      r.2.mem ((c.tc : Thread nD τ).loc main_v41) = W9 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v41 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Result

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.Graph.lean ====
/-
  Two layers of normalised neighbourhood sums over a graph given by its edge list, in two arrangements.

  The graph has N nodes and E edges. Edge e lands on node p when its destination word, read signed, is p; it brings the
  row of its source node, the node its source word selects (read signed, clamped into [0, N - 1]). Every node carries a
  factor D; the normalised sum at node p of a node matrix H is

      sum over the edges e landing on p of  H(src e) * (D(src e) * D(dst e)),

  where dst e is the node the destination word selects under the same clamp, after the numpy wrap of a negative word.

  One arrangement scales each edge's row by the two endpoint factors, as written. The other scales the rows of H by D
  once, sums the scaled rows over the landing edges, and multiplies the sum at p by D p. They agree when
    * D p is a non-negative extended real other than +inf (then multiplying by D p distributes over any sum of
      extended reals, infinite terms of both signs included), and
    * an edge landing on p has dst e = p.
  No entry of H needs to be finite.
-/
import Idealize.ShloMosaic.PureOps.Ideal.Laws
import Idealize.ShloMosaic.Lib.ValueIdx
import proofs.«148809_j14516989460622_2_alg».proof.Proof.LibGatherRows

noncomputable section

namespace Cert.Graph

open Idealize.ShloMosaic Idealize.ShloMosaic.ValueIdx Idealize.ShloMosaic.GatherRows

/-- Multiplying by a non-negative extended real other than +inf distributes over a finite sum of extended reals. -/
theorem sum_mul_of_nonneg_of_ne_top {ι : Type} (s : Finset ι) (f : ι → EReal) {d : EReal} (hd : 0 ≤ d) (hd' : d ≠ ⊤) :
    (∑ i ∈ s, f i) * d = ∑ i ∈ s, f i * d := by
  classical
  induction s using Finset.induction_on with
  | empty => simp
  | insert a s ha ih =>
    rw [Finset.sum_insert ha, Finset.sum_insert ha, EReal.right_distrib_of_nonneg_of_ne_top hd hd', ih]

section Sums

variable {N E : Nat} (hN : 0 < N) (dstc srcc dstwc : IVec ⟨2, ![E, 1]⟩ 32) (D : Fin N → EReal)

/-- The plain neighbourhood sum: over the edges landing on `p`, entry `q` of the source node's row of `H`. -/
def agg {C : Nat} (H : Fin N → Fin C → EReal) (p : Fin N) (q : Fin C) : EReal :=
  ∑ e : Fin E, if (dstc (ix2 e 0)).toInt = (p.val : ℤ) then H (clampRow N hN (srcc (ix2 e 0))) q else 0

/-- The normalised neighbourhood sum: each edge's entry times the factors of its two endpoints. -/
def aggNorm {C : Nat} (H : Fin N → Fin C → EReal) (p : Fin N) (q : Fin C) : EReal :=
  ∑ e : Fin E, if (dstc (ix2 e 0)).toInt = (p.val : ℤ) then
    H (clampRow N hN (srcc (ix2 e 0))) q * (D (clampRow N hN (srcc (ix2 e 0))) * D (clampRow N hN (dstwc (ix2 e 0)))) else 0

/-- The factor is a non-negative extended real other than +inf at every node. -/
def Tame : Prop := ∀ p : Fin N, 0 ≤ D p ∧ D p ≠ ⊤

/-- An edge landing on `p` has `p` as its wrapped, clamped destination. -/
def LandsAtDst : Prop :=
  ∀ (e : Fin E) (p : Fin N), (dstc (ix2 e 0)).toInt = (p.val : ℤ) → clampRow N hN (dstwc (ix2 e 0)) = p

/-- THE LAW: rows scaled once, summed, and the sum scaled at the landing node, against each edge scaled by both factors. -/
theorem agg_scale {C : Nat} (hD : Tame D) (hw : LandsAtDst hN dstc dstwc) (H : Fin N → Fin C → EReal) (p : Fin N) (q : Fin C) :
    agg hN dstc srcc (fun r k => H r k * D r) p q * D p = aggNorm hN dstc srcc dstwc D H p q := by
  unfold agg aggNorm
  rw [sum_mul_of_nonneg_of_ne_top _ _ (hD p).1 (hD p).2]
  refine Finset.sum_congr rfl fun e _ => ?_
  by_cases h : (dstc (ix2 e 0)).toInt = (p.val : ℤ)
  · rw [if_pos h, if_pos h, hw e p h, mul_assoc]
  · rw [if_neg h, if_neg h, zero_mul]

end Sums

/-! ## The two-layer network in both arrangements -/

section Net

variable {N E K C : Nat} (hN : 0 < N) (dstc srcc dstwc : IVec ⟨2, ![E, 1]⟩ 32) (D : Fin N → EReal)
  (x : Fin N → Fin K → EReal) (w1 : Fin K → Fin C → EReal) (b1 : Fin C → EReal) (w2 : Fin C → EReal) (b2 : EReal)
  (rect : EReal → EReal)

/-- The first linear map: x · w1. -/
def lin1 (r : Fin N) (q : Fin C) : EReal := ∑ j : Fin K, x r j * w1 j q

/-- Hidden layer, rows scaled before the sum and the sum scaled after it. -/
def hidScaled (p : Fin N) (k : Fin C) : EReal :=
  rect (agg hN dstc srcc (fun r q => lin1 x w1 r q * D r) p k * D p + b1 k)

/-- Hidden layer, each edge scaled by its two endpoint factors. -/
def hidNorm (p : Fin N) (k : Fin C) : EReal :=
  rect (aggNorm hN dstc srcc dstwc D (lin1 x w1) p k + b1 k)

/-- Output, rows scaled before the sum and the sum scaled after it. -/
def outScaled (p : Fin N) : EReal :=
  agg hN dstc srcc (fun r (_ : Fin 1) => (∑ k : Fin C, hidScaled hN dstc srcc D x w1 b1 rect r k * w2 k) * D r) p 0 * D p + b2

/-- Output, each edge scaled by its two endpoint factors. -/
def outNorm (p : Fin N) : EReal :=
  aggNorm hN dstc srcc dstwc D (fun r (_ : Fin 1) => ∑ k : Fin C, hidNorm hN dstc srcc dstwc D x w1 b1 rect r k * w2 k) p 0 + b2

theorem hidScaled_eq_hidNorm (hD : Tame D) (hw : LandsAtDst hN dstc dstwc) (p : Fin N) (k : Fin C) :
    hidScaled hN dstc srcc D x w1 b1 rect p k = hidNorm hN dstc srcc dstwc D x w1 b1 rect p k := by
  unfold hidScaled hidNorm
  rw [agg_scale hN dstc srcc dstwc D hD hw]

/-- THE TWO ARRANGEMENTS AGREE at every node. -/
theorem outScaled_eq_outNorm (hD : Tame D) (hw : LandsAtDst hN dstc dstwc) (p : Fin N) :
    outScaled hN dstc srcc D x w1 b1 w2 b2 rect p = outNorm hN dstc srcc dstwc D x w1 b1 w2 b2 rect p := by
  unfold outScaled outNorm
  rw [agg_scale hN dstc srcc dstwc D hD hw]
  simp only [hidScaled_eq_hidNorm hN dstc srcc dstwc D x w1 b1 rect hD hw]

end Net

/-! ## The factor is tame: 1/sqrt of a positive degree, zero otherwise -/

/-- `where(g > 0, rsqrt g, 0)` is a non-negative extended real other than +inf for EVERY extended real `g`:
    `rsqrt` of +inf is 0, of a positive real a positive real, and elsewhere the zero is taken. -/
theorem where_rsqrt_tame (g : EReal) :
    0 ≤ Scalar.select (Ideal.cmp .ogt g 0) (Ideal.rsqrt g) 0 ∧ Scalar.select (Ideal.cmp .ogt g 0) (Ideal.rsqrt g) 0 ≠ ⊤ := by
  show 0 ≤ (if BitVec.ofBool (decide ((0 : EReal) < g)) = 1 then Ideal.rsqrt g else 0)
    ∧ (if BitVec.ofBool (decide ((0 : EReal) < g)) = 1 then Ideal.rsqrt g else 0) ≠ ⊤
  by_cases h : (0 : EReal) < g
  · have hc : BitVec.ofBool (decide ((0 : EReal) < g)) = 1 := by simp [h]
    rw [if_pos hc]
    induction g using EReal.rec with
    | bot => exact absurd h (by simp)
    | top => exact ⟨le_of_eq Ideal.rsqrt_top.symm, by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have hc : ¬ BitVec.ofBool (decide ((0 : EReal) < g)) = 1 := by simp [h]
    rw [if_neg hc]
    exact ⟨le_rfl, EReal.zero_ne_top⟩

end Cert.Graph

end
-- ==== Proof.Interface.lean ====
/-
  The quantities both programs are read against, as functions of the edge array alone: the destination column the
  segment sums scatter by, the wrapped source and destination columns the gathers take rows by, and the per-node factor
  where(deg > 0, rsqrt deg, 0). The reference's own stages name them; the kernel program computes the same terms. Also
  the rectifier max(·, 0) with the zero written as its f32 word.
-/
import proofs.«148809_j14516989460622_2_alg».proof.Proof.RefReadPatched
import proofs.«148809_j14516989460622_2_alg».proof.Proof.Graph

noncomputable section

namespace Cert.Interface

open Idealize.ShloMosaic Idealize.ShloMosaic.ValueIdx Cert.ReferenceIdeal

/-- Node count and edge count (the listed edges and one loop per node). -/
abbrev nNodes : Nat := 100000
abbrev nEdges : Nat := 1700000

theorem nNodes_pos : 0 < nNodes := by decide

variable (x5 : (⟨S2x1600000, .i32⟩ : BufTy).Contents (Elt Ideal))

/-- The destination words as a column: what every segment sum scatters by. -/
abbrev dstCol : IVec ⟨2, ![nEdges, 1]⟩ 32 := Read.val_main_v10 (F := Ideal) x5
/-- The source words, a negative one wrapped by the node count, as a column: what the row gathers read by. -/
abbrev srcCol : IVec ⟨2, ![nEdges, 1]⟩ 32 := Read.val_main_v21 (F := Ideal) x5
/-- The destination words wrapped the same way, as a column: what the reference's second factor gather reads by. -/
abbrev dstWrapCol : IVec ⟨2, ![nEdges, 1]⟩ 32 := Read.val_main_v28 (F := Ideal) x5
/-- The per-node factor. -/
abbrev factor : Fin nNodes → EReal := fun r => Read.val_main_v15 (F := Ideal) x5 (ix1 r)

/-- max(·, 0), the zero as its f32 word. -/
abbrev rect : EReal → EReal := fun a => max a (Ideal.ofBits .f32 0x00000000#32)

end Cert.Interface

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.LibScatterCols.lean ====
/-
  A scatter of columns, read at an index.

  `x.at[:, idx].add(v)` for a matrix `x : [C, N]`, indices `idx : [E]` (as `[E, 1]`) and updates `v : [C, E]`:
  column `e` of the updates lands on column `idx e` of the operand, read as a signed integer, when that is inside
  `[0, N)`, and is dropped otherwise; rows go to rows. This is the transposed layout of the row scatter
  (`[E, C]` rows into `[N, C]`): a per-row `segment_sum` mapped over the `C` rows of a `[C, E]` array.
  On the extended reals every entry ends at its initial value plus the sum of the updates landing on it.
-/
import Idealize.ShloMosaic.PureOps.Ideal
import Idealize.ShloMosaic.Lib.ValueIdx

noncomputable section

namespace Idealize.ShloMosaic.ScatterCols

open Idealize.ShloMosaic Idealize.ShloMosaic.ValueIdx

/-- The dimension numbers of the column scatter: the updates' axis 0 is the window (it goes to the operand's axis 0),
    the operand's axis 1 is the one the indices address. -/
abbrev colsDims (N E C : Nat) (wf : ScatterDims.WF ⟨2, ![C, N]⟩ ⟨2, ![E, 1]⟩ ⟨2, ![C, E]⟩ [0] [1] [1] 1) :
    ScatterDims ⟨2, ![C, N]⟩ ⟨2, ![E, 1]⟩ ⟨2, ![C, E]⟩ where
  updateWindowDims := [0]
  insertedWindowDims := [1]
  scatterDimsToOperandDims := [1]
  indexVectorDim := 1
  wf := wf

variable {N E C w : Nat} (wf : ScatterDims.WF ⟨2, ![C, N]⟩ ⟨2, ![E, 1]⟩ ⟨2, ![C, E]⟩ [0] [1] [1] 1)

/-- On the addressed axis the window starts at the index of the update's column, read signed. -/
theorem colsDims_start1 (j : (⟨2, ![C, E]⟩ : Shape).Idx) (idx : IVec ⟨2, ![E, 1]⟩ w) :
    (colsDims N E C wf).start j idx 1 = (idx (ix2 (j 1) 0)).toInt := by
  unfold ScatterDims.start
  rw [dif_pos (show (1 : Fin 2) ∈ (colsDims N E C wf).scatterDimsToOperandDims from List.mem_singleton.mpr rfl)]
  have hsi : (colsDims N E C wf).siIdx j ⟨List.idxOf (1 : Fin 2) (colsDims N E C wf).scatterDimsToOperandDims,
      List.idxOf_lt_length_iff.2 (List.mem_singleton.mpr rfl)⟩ = ix2 (j 1) 0 := by
    funext b; refine Fin.ext ?_
    match b with
    | ⟨0, _⟩ => rfl
    | ⟨1, _⟩ => rfl
  rw [hsi]
  rfl

/-- On the row axis the window starts at zero. -/
theorem colsDims_start0 (j : (⟨2, ![C, E]⟩ : Shape).Idx) (idx : IVec ⟨2, ![E, 1]⟩ w) :
    (colsDims N E C wf).start j idx 0 = 0 := by
  unfold ScatterDims.start
  rw [dif_neg (fun h => by simp at h)]

/-- The window coordinate on the row axis is the update's row. -/
theorem colsDims_window0 (j : (⟨2, ![C, E]⟩ : Shape).Idx) : (colsDims N E C wf).window j 0 = (j 0).val := by
  unfold ScatterDims.window
  rw [dif_pos (show (0 : Fin 2) ∈ (colsDims N E C wf).sKept from
    List.mem_filter.2 ⟨List.mem_finRange _, by simp⟩)]
  rfl

/-- The addressed axis is inserted: no window coordinate there. -/
theorem colsDims_window1 (j : (⟨2, ![C, E]⟩ : Shape).Idx) : (colsDims N E C wf).window j 1 = 0 := by
  unfold ScatterDims.window
  rw [dif_neg (fun h => by
    have h' := (List.mem_filter.1 h).2
    simp at h')]

/-- Entry `(c, e)` of the updates lands on entry `(q, p)` exactly when `c = q` and column `e`'s index, read signed,
    is `p`. -/
theorem colsDims_resultIdx?_eq_some (j : (⟨2, ![C, E]⟩ : Shape).Idx) (idx : IVec ⟨2, ![E, 1]⟩ w) (q : Fin C) (p : Fin N) :
    (colsDims N E C wf).resultIdx? j idx = some (ix2 q p)
      ↔ (j 0).val = q.val ∧ (idx (ix2 (j 1) 0)).toInt = (p.val : ℤ) := by
  unfold ScatterDims.resultIdx?
  constructor
  · intro h
    split at h
    · next hc =>
      have hv0 : ((colsDims N E C wf).start j idx 0 + (colsDims N E C wf).window j 0).toNat = q.val :=
        congrArg Fin.val (congrFun (Option.some.inj h) 0)
      have hv1 : ((colsDims N E C wf).start j idx 1 + (colsDims N E C wf).window j 1).toNat = p.val :=
        congrArg Fin.val (congrFun (Option.some.inj h) 1)
      have h1 := (hc 1).1
      rw [colsDims_start0, colsDims_window0] at hv0
      rw [colsDims_start1, colsDims_window1] at hv1 h1
      constructor <;> omega
    · exact absurd h (by simp)
  · rintro ⟨hq, h⟩
    have hc : ∀ a, 0 ≤ (colsDims N E C wf).start j idx a + (colsDims N E C wf).window j a ∧
        (colsDims N E C wf).start j idx a + (colsDims N E C wf).window j a < (⟨2, ![C, N]⟩ : Shape).size a := by
      intro a
      match a with
      | ⟨0, _⟩ =>
        show 0 ≤ (colsDims N E C wf).start j idx 0 + (colsDims N E C wf).window j 0 ∧
          (colsDims N E C wf).start j idx 0 + (colsDims N E C wf).window j 0 < (C : ℤ)
        rw [colsDims_start0, colsDims_window0, hq]
        have := q.isLt
        constructor <;> omega
      | ⟨1, _⟩ =>
        show 0 ≤ (colsDims N E C wf).start j idx 1 + (colsDims N E C wf).window j 1 ∧
          (colsDims N E C wf).start j idx 1 + (colsDims N E C wf).window j 1 < (N : ℤ)
        rw [colsDims_start1, colsDims_window1, h]
        have := p.isLt
        constructor <;> omega
    rw [dif_pos hc]
    congr 1
    funext a
    refine Fin.ext ?_
    match a with
    | ⟨0, _⟩ =>
      show ((colsDims N E C wf).start j idx 0 + (colsDims N E C wf).window j 0).toNat = q.val
      rw [colsDims_start0, colsDims_window0, hq]
      omega
    | ⟨1, _⟩ =>
      show ((colsDims N E C wf).start j idx 1 + (colsDims N E C wf).window j 1).toNat = p.val
      rw [colsDims_start1, colsDims_window1, h]
      omega

/-- THE ACCUMULATED COLUMNS READ AT `(q, p)`, on the extended reals: the operand's entry plus the sum, over the
    columns `e` of the updates whose index is `p`, of the update's entry `(q, e)`. -/
theorem cols_scatterAdd_apply (x : (⟨2, ![C, N]⟩ : Shape).Idx → EReal) (idx : IVec ⟨2, ![E, 1]⟩ w)
    (upd : (⟨2, ![C, E]⟩ : Shape).Idx → EReal) (q : Fin C) (p : Fin N) :
    Ideal.hostScatterAdd (colsDims N E C wf) x idx upd (ix2 q p)
      = x (ix2 q p) + ∑ e : Fin E, if (idx (ix2 e 0)).toInt = (p.val : ℤ) then upd (ix2 q e) else 0 := by
  unfold Ideal.hostScatterAdd
  congr 1
  rw [Finset.sum_filter, sum_idx2, Finset.sum_comm]
  refine Finset.sum_congr rfl fun e _ => ?_
  simp only [colsDims_resultIdx?_eq_some]
  by_cases he : (idx (ix2 e 0)).toInt = (p.val : ℤ)
  · have : ∀ c : Fin C, (((ix2 c e : (⟨2, ![C, E]⟩ : Shape).Idx) 0).val = q.val
        ∧ (idx (ix2 ((ix2 c e : (⟨2, ![C, E]⟩ : Shape).Idx) 1) 0)).toInt = (p.val : ℤ)) ↔ c = q := fun c =>
      ⟨fun h => Fin.ext h.1, fun h => ⟨congrArg Fin.val h, he⟩⟩
    simp only [this, Finset.sum_ite_eq', Finset.mem_univ, if_true, he]
  · have : ∀ c : Fin C, ¬ (((ix2 c e : (⟨2, ![C, E]⟩ : Shape).Idx) 0).val = q.val
        ∧ (idx (ix2 ((ix2 c e : (⟨2, ![C, E]⟩ : Shape).Idx) 1) 0)).toInt = (p.val : ℤ)) := fun c h => he h.2
    simp only [this, if_false, Finset.sum_const_zero, he]

end Idealize.ShloMosaic.ScatterCols

end
-- ==== Proof.LibScatterHost.lean ====
/-
  The host's accumulating scatter, read at an index, for the two layouts of a segment sum.

  `Host.scatterAdd` read at the extended reals is the exact sum (`Ideal.hostScatterAdd`); these two lemmas state the
  row form (`[E, C]` rows into `[N, C]`) and the column form (`[C, E]` columns into `[C, N]`) directly of the host
  operation, for any extents: the two layouts of one segment sum, read at transposed entries, are the same sum.
-/
import proofs.«148809_j14516989460622_2_alg».proof.Proof.LibScatterRows
import proofs.«148809_j14516989460622_2_alg».proof.Proof.LibScatterCols

noncomputable section

namespace Idealize.ShloMosaic.ScatterHost

open Idealize.ShloMosaic Idealize.ShloMosaic.ValueIdx

variable {N E C w : Nat}

/-- The host's row scatter at `(p, q)`: the operand's entry plus the sum, over the rows `e` of the updates whose index
    is `p`, of the update's entry `(e, q)`. -/
theorem rows_apply (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (p : Fin N) (q : Fin C) :
    Host.scatterAdd (ScatterRows.rowsDims N E C wf) x idx upd (ix2 p q)
      = x (ix2 p q) + ∑ e : Fin E, if (idx (ix2 e 0)).toInt = (p.val : ℤ) then upd (ix2 e q) else 0 :=
  ScatterRows.rows_scatterAdd_apply wf x idx upd p q

/-- The host's column scatter at `(q, p)`: the operand's entry plus the sum, over the columns `e` of the updates whose
    index is `p`, of the update's entry `(q, e)`. -/
theorem cols_apply (wf : ScatterDims.WF ⟨2, ![C, N]⟩ ⟨2, ![E, 1]⟩ ⟨2, ![C, E]⟩ [0] [1] [1] 1)
    (x : FVec Ideal ⟨2, ![C, N]⟩ .f32) (idx : IVec ⟨2, ![E, 1]⟩ w) (upd : FVec Ideal ⟨2, ![C, E]⟩ .f32) (q : Fin C) (p : Fin N) :
    Host.scatterAdd (ScatterCols.colsDims N E C wf) x idx upd (ix2 q p)
      = x (ix2 q p) + ∑ e : Fin E, if (idx (ix2 e 0)).toInt = (p.val : ℤ) then upd (ix2 q e) else 0 :=
  ScatterCols.cols_scatterAdd_apply wf x idx upd q p

end Idealize.ShloMosaic.ScatterHost

end
-- ==== Proof.KernelHost.lean ====
/-
  The host operations between the kernels, one stretch at a time, from ANY buffer contents the stretch starts at.

  Before the first kernel: the source and destination words (the listed edges, then one loop per node), the per-node
  factor where(deg > 0, rsqrt deg, 0) of the degree count, and the factor, the two biases laid out as a column, a row
  and a single entry. Between the kernels, twice: take the rows of the previous kernel's result at the wrapped source
  words and sum them into the rows the destination words name. After the last kernel: the one-column result flattened.
  Each is the same term the reference's stages name, so both programs are read against one vocabulary; the gather
  followed by the segment sum, read at an entry, is the plain neighbourhood sum.
-/
import proofs.«148809_j14516989460622_2_alg».proof.Proof.KernelRun
import proofs.«148809_j14516989460622_2_alg».proof.Proof.Interface
import proofs.«148809_j14516989460622_2_alg».proof.Proof.LibScatterHost
import proofs.«148809_j14516989460622_2_alg».proof.Proof.LibGatherRows
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.ShloMosaic.ValueIdx Idealize.SL.Sem Idealize.ShloMosaic.StableHlo
open Cert.Interface

/-- Rows of a 64-column node matrix taken at the wrapped source words and summed into the rows the destination words
    name, as the host spells it. -/
def spread64 (dst src : IVec S1700000 32) (K : S100000x64.Idx → EReal) : S100000x64.Idx → EReal :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (Host.gather gather_S100000x64_S1700000x1_S1700000x64_1_0_n_n_0_1_164 K
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src)))

/-- The same for a one-column node matrix. -/
def spread1 (dst src : IVec S1700000 32) (K : S100000x1.Idx → EReal) : S100000x1.Idx → EReal :=
  Host.scatterAdd (F := Ideal) scatter_S100000x1_S1700000x1_S1700000x1_1_0_0_1
    (broadcastInDim S100000x1 ![] bcast_S_S100000x1 (constant (F := Ideal) S_ .f32 0x00000000#32))
    (broadcastInDim S1700000x1 ![0] bcast_S1700000_S1700000x1_0 dst)
    (Host.gather gather_S100000x1_S1700000x1_S1700000x1_1_0_n_n_0_1_11 K
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src)))

section Stretches
variable (Wv : Valuation τ sig (Elt Ideal))

/-! ## Before the first kernel -/

theorem first_src : StableHlo.after hostOps0 Wv (Proc.devRef .tc main_v3)
    = Cert.ReferenceIdeal.Read.val_main_v3 (F := Ideal) (Wv (Proc.devRef .tc main_arg5)) := by
  after_results; rfl

theorem first_dst : StableHlo.after hostOps0 Wv (Proc.devRef .tc main_v6)
    = Cert.ReferenceIdeal.Read.val_main_v6 (F := Ideal) (Wv (Proc.devRef .tc main_arg5)) := by
  after_results; rfl

theorem first_positive : StableHlo.after hostOps0 Wv (Proc.devRef .tc main_v12)
    = Cert.ReferenceIdeal.Read.val_main_v13 (F := Ideal) (Wv (Proc.devRef .tc main_arg5)) := by
  after_results; rfl

theorem first_rsqrt : StableHlo.after hostOps0 Wv (Proc.devRef .tc main_v13)
    = Cert.ReferenceIdeal.Read.val_main_v14 (F := Ideal) (Wv (Proc.devRef .tc main_arg5)) := by
  after_results; rfl

theorem first_zero : StableHlo.after hostOps0 Wv (Proc.devRef .tc main_cst_2)
    = Cert.ReferenceIdeal.Read.val_main_cst_2 (F := Ideal) := by
  after_results; rfl

/-- The selection where(deg > 0, rsqrt deg, 0). -/
theorem where_factor : StableHlo.after hostOps0_1 Wv (Proc.devRef .tc main_v14)
    = select (Wv (Proc.devRef .tc main_v12)) (Wv (Proc.devRef .tc main_v13))
        (broadcastInDim S100000 ![] bcast_S_S100000 (id (Wv (Proc.devRef .tc main_cst_2)))) := by
  after_results; rfl

theorem factor_column : StableHlo.after hostOps0_2 Wv (Proc.devRef .tc main_v15)
    = shapeCast S100000x1 (Wv (Proc.devRef .tc main_v14)) shapeCasts_S100000_S100000x1 := by
  after_results; rfl

theorem bias1_row : StableHlo.after hostOps0_2 Wv (Proc.devRef .tc main_v16)
    = shapeCast S1x64 (Wv (Proc.devRef .tc main_arg2)) shapeCasts_S64_S1x64 := by
  after_results; rfl

theorem bias2_entry : StableHlo.after hostOps0_2 Wv (Proc.devRef .tc main_v17)
    = shapeCast S1x1 (Wv (Proc.devRef .tc main_arg4)) shapeCasts_S1_S1x1 := by
  after_results; rfl

/-! ## Between the kernels, and after the last -/

theorem first_pass : StableHlo.after hostOps1 Wv (Proc.devRef .tc main_v28)
    = spread64 (Wv (Proc.devRef .tc main_v6)) (Wv (Proc.devRef .tc main_v3)) (Wv (Proc.devRef .tc main_v18)) := by
  after_results; rfl

theorem second_pass : StableHlo.after hostOps2 Wv (Proc.devRef .tc main_v39)
    = spread1 (Wv (Proc.devRef .tc main_v6)) (Wv (Proc.devRef .tc main_v3)) (Wv (Proc.devRef .tc main_v29)) := by
  after_results; rfl

theorem flattened : StableHlo.after hostOps3 Wv (Proc.devRef .tc main_v41)
    = shapeCast S100000 (Wv (Proc.devRef .tc main_v40)) shapeCasts_S100000x1_S100000 := by
  after_results; rfl

end Stretches

/-! ## A pass read at an entry is the plain neighbourhood sum -/

theorem zeros64_apply (i : S100000x64.Idx) :
    broadcastInDim S100000x64 ![] bcast_S_S100000x64 (constant (F := Ideal) S_ .f32 0x00000000#32) i = 0 :=
  Ideal.ofBits_zero_f32

theorem zeros1_apply (i : S100000x1.Idx) :
    broadcastInDim S100000x1 ![] bcast_S_S100000x1 (constant (F := Ideal) S_ .f32 0x00000000#32) i = 0 :=
  Ideal.ofBits_zero_f32

theorem spread64_apply (x5 : (⟨Cert.ReferenceIdeal.S2x1600000, .i32⟩ : BufTy).Contents (Elt Ideal)) (K : S100000x64.Idx → EReal)
    (p : Fin 100000) (q : Fin 64) :
    spread64 (Cert.ReferenceIdeal.Read.val_main_v6 (F := Ideal) x5) (Cert.ReferenceIdeal.Read.val_main_v3 (F := Ideal) x5) K (ix2 p q)
      = Cert.Graph.agg nNodes_pos (dstCol x5) (srcCol x5) (fun r k => K (ix2 r k)) p q := by
  have e : spread64 (Cert.ReferenceIdeal.Read.val_main_v6 (F := Ideal) x5) (Cert.ReferenceIdeal.Read.val_main_v3 (F := Ideal) x5) K
      = Host.scatterAdd (F := Ideal)
          (ScatterRows.rowsDims 100000 1700000 64 scatter_S100000x64_S1700000x1_S1700000x64_1_0_0_1_wf)
          (broadcastInDim S100000x64 ![] bcast_S_S100000x64 (constant (F := Ideal) S_ .f32 0x00000000#32))
          (dstCol x5)
          (Host.gather (GatherRows.rowsDims 100000 1700000 64 gather_S100000x64_S1700000x1_S1700000x64_1_0_n_n_0_1_164_wf) K
            (srcCol x5)) := rfl
  rw [e, ScatterHost.rows_apply, zeros64_apply, zero_add]
  unfold Cert.Graph.agg
  refine Finset.sum_congr rfl fun e _ => ?_
  rw [GatherRows.rows_gather_apply nNodes_pos]

theorem spread1_apply (x5 : (⟨Cert.ReferenceIdeal.S2x1600000, .i32⟩ : BufTy).Contents (Elt Ideal)) (K : S100000x1.Idx → EReal)
    (p : Fin 100000) (q : Fin 1) :
    spread1 (Cert.ReferenceIdeal.Read.val_main_v6 (F := Ideal) x5) (Cert.ReferenceIdeal.Read.val_main_v3 (F := Ideal) x5) K (ix2 p q)
      = Cert.Graph.agg nNodes_pos (dstCol x5) (srcCol x5) (fun r k => K (ix2 r k)) p q := by
  have e : spread1 (Cert.ReferenceIdeal.Read.val_main_v6 (F := Ideal) x5) (Cert.ReferenceIdeal.Read.val_main_v3 (F := Ideal) x5) K
      = Host.scatterAdd (F := Ideal)
          (ScatterRows.rowsDims 100000 1700000 1 scatter_S100000x1_S1700000x1_S1700000x1_1_0_0_1_wf)
          (broadcastInDim S100000x1 ![] bcast_S_S100000x1 (constant (F := Ideal) S_ .f32 0x00000000#32))
          (dstCol x5)
          (Host.gather (GatherRows.rowsDims 100000 1700000 1 gather_S100000x1_S1700000x1_S1700000x1_1_0_n_n_0_1_11_wf) K
            (srcCol x5)) := rfl
  rw [e, ScatterHost.rows_apply, zeros1_apply, zero_add]
  unfold Cert.Graph.agg
  refine Finset.sum_congr rfl fun e _ => ?_
  rw [GatherRows.rows_gather_apply nNodes_pos]

end Cert.KernelIdeal.Stretch

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.Region0.lean ====
/-
  The first kernel: the product x · w scaled row by row.

  Over a grid of 50 points, point t takes rows 2000 t … 2000 t + 1999 of x (all 128 columns), the whole of w, and the
  same rows of the one-column factor d, and writes the same rows of the result: entry (r, q) of the block is
  (sum over k of x(r, k) · w(k, q)) · d(r, 0). The blocks tile the 100000 rows, so the array the region leaves is that
  function of the three arrays the region finds, entry by entry.
-/
import proofs.«148809_j14516989460622_2_alg».proof.Proof.Gen.KernelIdeal.Frame
import Idealize.ShloMosaic.Lib.Pipeline.Value
import Idealize.ShloMosaic.Lib.ValueIdx
import Idealize.ShloMosaic.PureOps.Ideal.Laws
import proofs.«148809_j14516989460622_2_alg».proof.Proof.LibMatmulPlain
import proofs.«148809_j14516989460622_2_alg».proof.Proof.LibKeepdims

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- Entry (r, q) of the scaled product. -/
def scaledProduct (a0 : S100000x128.Idx → EReal) (a1 : S128x64.Idx → EReal) (a2 : S100000x1.Idx → EReal) :
    S100000x64.Idx → EReal :=
  fun i => (∑ k : Fin 128, a0 (ix2 (i 0) k) * a1 (ix2 k (i 1))) * a2 (ix2 (i 0) (0 : Fin 1))

/-- The body's one stored value at entry (p, q) of the block: the 128-term product sum times the factor's row p. -/
theorem payload_apply (x0 : FVec Ideal S2000x128 .f32) (x1 : FVec Ideal S128x64 .f32) (x2 : FVec Ideal S2000x1 .f32)
    (p : Fin 2000) (q : Fin 64) :
    k0_pay1 (F := Ideal) x0 x1 x2 (ix2 p q)
      = (∑ k : Fin 128, x0 (ix2 p k) * x1 (ix2 k q)) * x2 (ix2 p (0 : Fin 1)) := by
  show FloatOps.matmul dot_S2000x128_S128x64_S2000x64_1_0_0_1_n_n none (truncf .bf16 x0 bitsLt_bf16_f32)
        (truncf .bf16 x1 bitsLt_bf16_f32) (constant S2000x64 .f32 0x00000000#32) (ix2 p q)
      * broadcastTo S2000x64 (shapeCast S2000x1 x2 shapeCasts_S2000x1_S2000x1) broadcasts_S2000x1_S2000x64 (ix2 p q) = _
  refine congrArg₂ (· * ·) ?_ ?_
  · exact Cert.LibMatmulPlain.matmul_zero_apply dot_S2000x128_S128x64_S2000x64_1_0_0_1_n_n_wf none
      (truncf .bf16 x0 bitsLt_bf16_f32) (truncf .bf16 x1 bitsLt_bf16_f32) p q
  · refine (Cert.Lib.Keepdims.bcastCol_apply _ broadcasts_S2000x1_S2000x64 p q).trans ?_
    rw [shapeCast_self]

theorem hz : (![0, 0] : Fin 2 → Nat) = fun _ => 0 := funext fun a => by fin_cases a <;> rfl

/-- The printed index maps over the 50 points: point t's blocks of x, of the factor and of the result start at row
    block t, column block 0; w's one block is the whole of it. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- WHAT POINT t WRITES BACK is block t of the scaled product of the arrays as the region finds them. -/
theorem flushed_eq (c : Dev nD) (t : Fin cfg0.N) :
    (dat0 V c).flushed 3 t = ((cfg0.win 3).blk t).view.read (Elt Ideal)
      (scaledProduct (V c main_arg0) (V c main_arg1) (V c main_v15)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x64) hz, View.ld_unit_zero (S := S2000x1) hz]
  obtain ⟨e0, e1, e2, e3, e4, e5, e6, e7⟩ := idx_facts t
  funext j
  obtain ⟨p, q, rfl⟩ : ∃ (p : Fin 2000) (q : Fin 64), j = ix2 p q := ⟨j 0, j 1, eq_ix2 j⟩
  refine (payload_apply (iblk0 V c 0 t) (iblk0 V c 1 t) (iblk0 V c 2 t) p q).trans ?_
  show _ = scaledProduct (V c main_arg0) (V c main_arg1) (V c main_v15) (((cfg0.win 3).blk t).view.emb (ix2 p q))
  have hp : p.val < 2000 := p.isLt
  have hq : q.val < 64 := q.isLt
  have h0 : ∀ k : Fin 128, iblk0 V c 0 t (ix2 p k)
      = V c main_arg0 (ix2 ((((cfg0.win 3).blk t).view.emb (ix2 p q)) 0) k) := fun k => by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  have h1 : ∀ k : Fin 128, iblk0 V c 1 t (ix2 k q)
      = V c main_arg1 (ix2 k ((((cfg0.win 3).blk t).view.emb (ix2 p q)) 1)) := fun k => by
    show V c main_arg1 (((cfg0.win 1).blk t).view.emb (ix2 k q)) = _
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 64 + 1 * q.val = win0_3.index t (1 : Fin 2) * 64 + 1 * q.val; omega
  have h2 : iblk0 V c 2 t (ix2 p (0 : Fin 1))
      = V c main_v15 (ix2 ((((cfg0.win 3).blk t).view.emb (ix2 p q)) 0) (0 : Fin 1)) := by
    show V c main_v15 (((cfg0.win 2).blk t).view.emb (ix2 p (0 : Fin 1))) = _
    refine congrArg (V c main_v15) (funext fun a => Fin.ext ?_)
    match a with
    | ⟨0, _⟩ => show win0_2.index t (0 : Fin 2) * 2000 + 1 * p.val = win0_3.index t (0 : Fin 2) * 2000 + 1 * p.val; omega
    | ⟨1, _⟩ => show win0_2.index t (1 : Fin 2) * 1 + 1 * 0 = 0; omega
  rw [h2]
  simp only [h0, h1]
  rfl

/-- An index of the result array is in point t's block iff each coordinate is in the block's range on its axis. -/
theorem mem_blk (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v18).slice (win0_3.rect t)).set ↔ _
  rw [View.set_slice_whole, Rect.mem_set_unit]
  exact Iff.rfl

/-- Every row lies in the block of the point numbered by its row block. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_3 _, ?_⟩
  rw [mem_blk]
  obtain ⟨-, -, -, -, -, -, e6, e7⟩ := idx_facts ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ (i 0).val ∧ (i 0).val < (i 0).val / 2000 * 2000 + 2000; omega
  | ⟨1, _⟩ =>
    show win0_3.index _ (1 : Fin 2) * 64 ≤ (i 1).val ∧ (i 1).val < win0_3.index _ (1 : Fin 2) * 64 + 64
    rw [e7]; omega

/-- THE ARRAY THE REGION LEAVES: the scaled product of the arrays it finds. -/
theorem final (c : Dev nD) :
    (dat0 V c).arrAt 3 cfg0.N = scaledProduct (V c main_arg0) (V c main_arg1) (V c main_v15) :=
  (dat0 V c).arrAt_eq_of_cover 3 _ (fun t _ => flushed_eq V c t) (cover)

end

end Cert.KernelIdeal.Region0

end
-- ==== Proof.Region1.lean ====
/-
  The second kernel: scale the aggregated rows by the factor, add the bias, rectify, multiply by the one-column
  weight, scale again.

  Over a grid of 50 points, point t takes rows 2000 t … 2000 t + 1999 of the aggregate a (64 columns) and of the
  one-column factor d, the whole bias row b and the whole weight w, and writes the same rows of the one-column result:
  row r holds (sum over k of max(a(r, k) · d(r, 0) + b(0, k), 0) · w(k, 0)) · d(r, 0). The blocks tile the 100000 rows.
-/
import proofs.«148809_j14516989460622_2_alg».proof.Proof.Gen.KernelIdeal.Frame
import Idealize.ShloMosaic.Lib.Pipeline.Value
import Idealize.ShloMosaic.Lib.ValueIdx
import Idealize.ShloMosaic.PureOps.Ideal.Laws
import proofs.«148809_j14516989460622_2_alg».proof.Proof.LibMatmulPlain
import proofs.«148809_j14516989460622_2_alg».proof.Proof.LibKeepdims

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- A row [1, b] repeated down [a, b]: element (p, q) is the row's entry q. -/
theorem rowDown_apply {α : Type} {a b : Nat} (row : (⟨2, ![1, b]⟩ : Shape).Idx → α)
    (h : (⟨2, ![1, b]⟩ : Shape).Broadcasts ⟨2, ![a, b]⟩) (p : Fin a) (q : Fin b) :
    broadcastTo ⟨2, ![a, b]⟩ row h (ix2 p q) = row (ix2 (0 : Fin 1) q) :=
  broadcastTo_apply row h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        split_ifs with hb
        · subst hb; have := q.isLt; omega
        · rfl)

/-- Row r of the layer: the rectified, biased, scaled aggregate against the weight column, scaled again. -/
def scaledLayer (a0 : S100000x64.Idx → EReal) (a1 : S100000x1.Idx → EReal) (a2 : S1x64.Idx → EReal) (a3 : S64x1.Idx → EReal) :
    S100000x1.Idx → EReal :=
  fun i => (∑ k : Fin 64, max (a0 (ix2 (i 0) k) * a1 (ix2 (i 0) (0 : Fin 1)) + a2 (ix2 (0 : Fin 1) k))
      (Ideal.ofBits .f32 0x00000000#32) * a3 (ix2 k (0 : Fin 1))) * a1 (ix2 (i 0) (0 : Fin 1))

/-- The body's one stored value at row p of the block. The factor block is loaded twice; both loads are `x1`. -/
theorem payload_apply (x0 : FVec Ideal S2000x64 .f32) (x1 : FVec Ideal S2000x1 .f32) (x2 : FVec Ideal S1x64 .f32)
    (x3 : FVec Ideal S64x1 .f32) (x4 : FVec Ideal S2000x1 .f32) (p : Fin 2000) :
    k1_pay1 (F := Ideal) x0 x1 x2 x3 x4 (ix2 p (0 : Fin 1))
      = (∑ k : Fin 64, max (x0 (ix2 p k) * x1 (ix2 p (0 : Fin 1)) + x2 (ix2 (0 : Fin 1) k))
          (Ideal.ofBits .f32 0x00000000#32) * x3 (ix2 k (0 : Fin 1))) * x4 (ix2 p (0 : Fin 1)) := by
  show FloatOps.matmul dot_S2000x64_S64x1_S2000x1_1_0_0_1_n_n none
        (truncf .bf16 (maximumf (addf (mulf (shapeCast S2000x64 x0 shapeCasts_S2000x64_S2000x64)
            (broadcastTo S2000x64 (shapeCast S2000x1 x1 shapeCasts_S2000x1_S2000x1) broadcasts_S2000x1_S2000x64))
          (broadcastTo S2000x64 (shapeCast S1x64 x2 shapeCasts_S1x64_S1x64) broadcasts_S1x64_S2000x64))
          (broadcast S2000x64 (Scalar.ofBits (F := Ideal) .f32 0x00000000#32))) bitsLt_bf16_f32)
        (truncf .bf16 x3 bitsLt_bf16_f32) (constant S2000x1 .f32 0x00000000#32) (ix2 p (0 : Fin 1))
      * shapeCast S2000x1 x4 shapeCasts_S2000x1_S2000x1 (ix2 p (0 : Fin 1)) = _
  refine congrArg₂ (· * ·) ?_ ?_
  · refine (Cert.LibMatmulPlain.matmul_zero_apply dot_S2000x64_S64x1_S2000x1_1_0_0_1_n_n_wf none _ _ p (0 : Fin 1)).trans ?_
    refine Finset.sum_congr rfl fun k _ => ?_
    refine congrArg₂ (· * ·) ?_ rfl
    show max ((shapeCast S2000x64 x0 shapeCasts_S2000x64_S2000x64) (ix2 p k)
          * (broadcastTo S2000x64 (shapeCast S2000x1 x1 shapeCasts_S2000x1_S2000x1) broadcasts_S2000x1_S2000x64) (ix2 p k)
        + (broadcastTo S2000x64 (shapeCast S1x64 x2 shapeCasts_S1x64_S1x64) broadcasts_S1x64_S2000x64) (ix2 p k))
        (Ideal.ofBits .f32 0x00000000#32) = _
    rw [shapeCast_self, Cert.Lib.Keepdims.bcastCol_apply _ broadcasts_S2000x1_S2000x64 p k, shapeCast_self,
      rowDown_apply _ broadcasts_S1x64_S2000x64 p k, shapeCast_self]
  · rw [shapeCast_self]

theorem hz : (![0, 0] : Fin 2 → Nat) = fun _ => 0 := funext fun a => by fin_cases a <;> rfl

/-- The printed index maps over the 50 points: point t's blocks of the aggregate, of the factor and of the result
    start at row block t; the bias row's and the weight's one block is the whole of each. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- WHAT POINT t WRITES BACK is block t of the layer of the arrays as the region finds them. -/
theorem flushed_eq (c : Dev nD) (t : Fin cfg1.N) :
    (dat1 V c).flushed 4 t = ((cfg1.win 4).blk t).view.read (Elt Ideal)
      (scaledLayer (V c main_v28) (V c main_v15) (V c main_v16) (V c main_arg3)) := by
  show (cfg1.win 4).cut (grid1.coords t) ((dat1 V c).after 4 t) = _
  rw [after1_4]
  unfold out1_4
  rw [View.canon_unit_zero hz]
  simp only [View.ld_unit_zero (S := S2000x64) hz, View.ld_unit_zero (S := S2000x1) hz, View.ld_unit_zero (S := S1x64) hz,
    View.ld_unit_zero (S := S64x1) hz]
  obtain ⟨e0, e1, e2, e3, e4, e5, e6, e7, e8, e9⟩ := idx_facts t
  funext j
  obtain ⟨p, u, rfl⟩ : ∃ (p : Fin 2000) (u : Fin 1), j = ix2 p u := ⟨j 0, j 1, eq_ix2 j⟩
  obtain rfl : u = 0 := Subsingleton.elim _ _
  refine (payload_apply (iblk1 V c 0 t) (iblk1 V c 1 t) (iblk1 V c 2 t) (iblk1 V c 3 t) (iblk1 V c 1 t) p).trans ?_
  show _ = scaledLayer (V c main_v28) (V c main_v15) (V c main_v16) (V c main_arg3)
    (((cfg1.win 4).blk t).view.emb (ix2 p (0 : Fin 1)))
  have hp : p.val < 2000 := p.isLt
  have h0 : ∀ k : Fin 64, iblk1 V c 0 t (ix2 p k)
      = V c main_v28 (ix2 ((((cfg1.win 4).blk t).view.emb (ix2 p (0 : Fin 1))) 0) k) := fun k => by
    show V c main_v28 (((cfg1.win 0).blk t).view.emb (ix2 p k)) = _
    refine congrArg (V c main_v28) (funext fun a => Fin.ext ?_)
    match a with
    | ⟨0, _⟩ => show win1_0.index t (0 : Fin 2) * 2000 + 1 * p.val = win1_4.index t (0 : Fin 2) * 2000 + 1 * p.val; omega
    | ⟨1, _⟩ => show win1_0.index t (1 : Fin 2) * 64 + 1 * k.val = k.val; omega
  have h1 : iblk1 V c 1 t (ix2 p (0 : Fin 1))
      = V c main_v15 (ix2 ((((cfg1.win 4).blk t).view.emb (ix2 p (0 : Fin 1))) 0) (0 : Fin 1)) := by
    show V c main_v15 (((cfg1.win 1).blk t).view.emb (ix2 p (0 : Fin 1))) = _
    refine congrArg (V c main_v15) (funext fun a => Fin.ext ?_)
    match a with
    | ⟨0, _⟩ => show win1_1.index t (0 : Fin 2) * 2000 + 1 * p.val = win1_4.index t (0 : Fin 2) * 2000 + 1 * p.val; omega
    | ⟨1, _⟩ => show win1_1.index t (1 : Fin 2) * 1 + 1 * 0 = 0; omega
  have h2 : ∀ k : Fin 64, iblk1 V c 2 t (ix2 (0 : Fin 1) k) = V c main_v16 (ix2 (0 : Fin 1) k) := fun k => by
    show V c main_v16 (((cfg1.win 2).blk t).view.emb (ix2 (0 : Fin 1) k)) = _
    refine congrArg (V c main_v16) (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  have h3 : ∀ k : Fin 64, iblk1 V c 3 t (ix2 k (0 : Fin 1)) = V c main_arg3 (ix2 k (0 : Fin 1)) := fun k => by
    show V c main_arg3 (((cfg1.win 3).blk t).view.emb (ix2 k (0 : Fin 1))) = _
    refine congrArg (V c main_arg3) (funext fun a => Fin.ext ?_)
    match a with
    | ⟨0, _⟩ => show win1_3.index t (0 : Fin 2) * 64 + 1 * k.val = k.val; omega
    | ⟨1, _⟩ => show win1_3.index t (1 : Fin 2) * 1 + 1 * 0 = 0; omega
  simp only [h0, h1, h2, h3]
  rfl

/-- An index of the result array is in point t's block iff each coordinate is in the block's range on its axis. -/
theorem mem_blk (t : Fin cfg1.N) (i : S100000x1.Idx) :
    i ∈ ((cfg1.win 4).blk t).view.set ↔ ∀ a : Fin 2, win1_4.index t a * S2000x1.size a ≤ (i a).val
      ∧ (i a).val < win1_4.index t a * S2000x1.size a + S2000x1.size a := by
  show i ∈ ((View.whole main_v29).slice (win1_4.rect t)).set ↔ _
  rw [View.set_slice_whole, Rect.mem_set_unit]
  exact Iff.rfl

/-- Every row lies in the block of the point numbered by its row block. -/
theorem cover (i : S100000x1.Idx) :
    ∃ t : Fin cfg1.N, (cfg1.win 4).flush t = true ∧ i ∈ ((cfg1.win 4).blk t).view.set := by
  have hi0 : (i 0).val < 100000 := (i 0).isLt
  have hi1 : (i 1).val < 1 := (i 1).isLt
  have hN : cfg1.N = 50 := N_1
  refine ⟨⟨(i 0).val / 2000, by rw [hN]; omega⟩, flush1_4 _, ?_⟩
  rw [mem_blk]
  obtain ⟨-, -, -, -, -, -, -, -, e8, e9⟩ := idx_facts ⟨(i 0).val / 2000, by rw [hN]; omega⟩
  intro a
  match a with
  | ⟨0, _⟩ =>
    show win1_4.index _ (0 : Fin 2) * 2000 ≤ (i 0).val ∧ (i 0).val < win1_4.index _ (0 : Fin 2) * 2000 + 2000
    rw [e8]; show (i 0).val / 2000 * 2000 ≤ (i 0).val ∧ (i 0).val < (i 0).val / 2000 * 2000 + 2000; omega
  | ⟨1, _⟩ =>
    show win1_4.index _ (1 : Fin 2) * 1 ≤ (i 1).val ∧ (i 1).val < win1_4.index _ (1 : Fin 2) * 1 + 1
    rw [e9]; omega

/-- THE ARRAY THE REGION LEAVES: the layer of the arrays it finds. -/
theorem final (c : Dev nD) :
    (dat1 V c).arrAt 4 cfg1.N = scaledLayer (V c main_v28) (V c main_v15) (V c main_v16) (V c main_arg3) :=
  (dat1 V c).arrAt_eq_of_cover 4 _ (fun t _ => flushed_eq V c t) (cover)

end

end Cert.KernelIdeal.Region1

end
-- ==== Proof.Region2.lean ====
/-
  The third kernel: scale the aggregated column by the factor and add the bias.

  Over a grid of 50 points, point t takes rows 2000 t … 2000 t + 1999 of the one-column aggregate a and of the
  one-column factor d and the one bias entry b, and writes the same rows of the result: row r holds
  a(r, 0) · d(r, 0) + b(0, 0). The blocks tile the 100000 rows.
-/
import proofs.«148809_j14516989460622_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

/-- One entry [1, 1] repeated down a column [a, 1]: every row is the entry. -/
theorem entryDown_apply {α : Type} {a : Nat} (x : (⟨2, ![1, 1]⟩ : Shape).Idx → α)
    (h : (⟨2, ![1, 1]⟩ : Shape).Broadcasts ⟨2, ![a, 1]⟩) (p : Fin a) :
    broadcastTo ⟨2, ![a, 1]⟩ x h (ix2 p (0 : Fin 1)) = x (ix2 (0 : Fin 1) (0 : Fin 1)) :=
  broadcastTo_apply x h (ix2 p (0 : Fin 1)) (ix2 (0 : Fin 1) (0 : Fin 1)) (fun d => match d with
    | ⟨0, _⟩ => by show 0 = if (1 : Nat) = 1 then 0 else p.val; rw [if_pos rfl]
    | ⟨1, _⟩ => by show 0 = if (1 : Nat) = 1 then 0 else 0; rw [if_pos rfl])

/-- Row r of the result. -/
def scaledBiased (a0 : S100000x1.Idx → EReal) (a1 : S100000x1.Idx → EReal) (a2 : S1x1.Idx → EReal) :
    S100000x1.Idx → EReal :=
  fun i => a0 (ix2 (i 0) (0 : Fin 1)) * a1 (ix2 (i 0) (0 : Fin 1)) + a2 (ix2 (0 : Fin 1) (0 : Fin 1))

/-- The body's one stored value at row p of the block. -/
theorem payload_apply (x0 : FVec Ideal S2000x1 .f32) (x1 : FVec Ideal S2000x1 .f32) (x2 : FVec Ideal S1x1 .f32) (p : Fin 2000) :
    k2_pay1 (F := Ideal) x0 x1 x2 (ix2 p (0 : Fin 1))
      = x0 (ix2 p (0 : Fin 1)) * x1 (ix2 p (0 : Fin 1)) + x2 (ix2 (0 : Fin 1) (0 : Fin 1)) := by
  show shapeCast S2000x1 x0 shapeCasts_S2000x1_S2000x1 (ix2 p (0 : Fin 1))
        * shapeCast S2000x1 x1 shapeCasts_S2000x1_S2000x1 (ix2 p (0 : Fin 1))
      + broadcastTo S2000x1 (shapeCast S1x1 x2 shapeCasts_S1x1_S1x1) broadcasts_S1x1_S2000x1 (ix2 p (0 : Fin 1)) = _
  rw [shapeCast_self, shapeCast_self, entryDown_apply _ broadcasts_S1x1_S2000x1 p, shapeCast_self]

theorem hz : (![0, 0] : Fin 2 → Nat) = fun _ => 0 := funext fun a => by fin_cases a <;> rfl

/-- The printed index maps over the 50 points: point t's blocks of the aggregate, of the factor and of the result
    start at row block t; the bias entry's one block is the whole of it. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- WHAT POINT t WRITES BACK is block t of the scaled, biased column of the arrays as the region finds them. -/
theorem flushed_eq (c : Dev nD) (t : Fin cfg2.N) :
    (dat2 V c).flushed 3 t = ((cfg2.win 3).blk t).view.read (Elt Ideal)
      (scaledBiased (V c main_v39) (V c main_v15) (V c main_v17)) := by
  show (cfg2.win 3).cut (grid2.coords t) ((dat2 V c).after 3 t) = _
  rw [after2_3]
  unfold out2_3
  rw [View.canon_unit_zero hz]
  simp only [View.ld_unit_zero (S := S2000x1) hz, View.ld_unit_zero (S := S1x1) hz]
  obtain ⟨e0, e1, e2, e3, e4, e5, e6, e7⟩ := idx_facts t
  funext j
  obtain ⟨p, u, rfl⟩ : ∃ (p : Fin 2000) (u : Fin 1), j = ix2 p u := ⟨j 0, j 1, eq_ix2 j⟩
  obtain rfl : u = 0 := Subsingleton.elim _ _
  refine (payload_apply (iblk2 V c 0 t) (iblk2 V c 1 t) (iblk2 V c 2 t) p).trans ?_
  show _ = scaledBiased (V c main_v39) (V c main_v15) (V c main_v17) (((cfg2.win 3).blk t).view.emb (ix2 p (0 : Fin 1)))
  have hp : p.val < 2000 := p.isLt
  have h0 : iblk2 V c 0 t (ix2 p (0 : Fin 1))
      = V c main_v39 (ix2 ((((cfg2.win 3).blk t).view.emb (ix2 p (0 : Fin 1))) 0) (0 : Fin 1)) := by
    show V c main_v39 (((cfg2.win 0).blk t).view.emb (ix2 p (0 : Fin 1))) = _
    refine congrArg (V c main_v39) (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 1 + 1 * 0 = 0; omega
  have h1 : iblk2 V c 1 t (ix2 p (0 : Fin 1))
      = V c main_v15 (ix2 ((((cfg2.win 3).blk t).view.emb (ix2 p (0 : Fin 1))) 0) (0 : Fin 1)) := by
    show V c main_v15 (((cfg2.win 1).blk t).view.emb (ix2 p (0 : Fin 1))) = _
    refine congrArg (V c main_v15) (funext fun a => Fin.ext ?_)
    match a with
    | ⟨0, _⟩ => show win2_1.index t (0 : Fin 2) * 2000 + 1 * p.val = win2_3.index t (0 : Fin 2) * 2000 + 1 * p.val; omega
    | ⟨1, _⟩ => show win2_1.index t (1 : Fin 2) * 1 + 1 * 0 = 0; omega
  have h2 : iblk2 V c 2 t (ix2 (0 : Fin 1) (0 : Fin 1)) = V c main_v17 (ix2 (0 : Fin 1) (0 : Fin 1)) := by
    show V c main_v17 (((cfg2.win 2).blk t).view.emb (ix2 (0 : Fin 1) (0 : Fin 1))) = _
    refine congrArg (V c main_v17) (funext fun a => Fin.ext ?_)
    match a with
    | ⟨0, _⟩ => show win2_2.index t (0 : Fin 2) * 1 + 1 * 0 = 0; omega
    | ⟨1, _⟩ => show win2_2.index t (1 : Fin 2) * 1 + 1 * 0 = 0; omega
  rw [h0, h1, h2]
  rfl

/-- An index of the result array is in point t's block iff each coordinate is in the block's range on its axis. -/
theorem mem_blk (t : Fin cfg2.N) (i : S100000x1.Idx) :
    i ∈ ((cfg2.win 3).blk t).view.set ↔ ∀ a : Fin 2, win2_3.index t a * S2000x1.size a ≤ (i a).val
      ∧ (i a).val < win2_3.index t a * S2000x1.size a + S2000x1.size a := by
  show i ∈ ((View.whole main_v40).slice (win2_3.rect t)).set ↔ _
  rw [View.set_slice_whole, Rect.mem_set_unit]
  exact Iff.rfl

/-- Every row lies in the block of the point numbered by its row block. -/
theorem cover (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  have hN : cfg2.N = 50 := N_2
  refine ⟨⟨(i 0).val / 2000, by rw [hN]; omega⟩, flush2_3 _, ?_⟩
  rw [mem_blk]
  obtain ⟨-, -, -, -, -, -, e6, e7⟩ := idx_facts ⟨(i 0).val / 2000, by rw [hN]; omega⟩
  intro a
  match a with
  | ⟨0, _⟩ =>
    show win2_3.index _ (0 : Fin 2) * 2000 ≤ (i 0).val ∧ (i 0).val < win2_3.index _ (0 : Fin 2) * 2000 + 2000
    rw [e6]; show (i 0).val / 2000 * 2000 ≤ (i 0).val ∧ (i 0).val < (i 0).val / 2000 * 2000 + 2000; omega
  | ⟨1, _⟩ =>
    show win2_3.index _ (1 : Fin 2) * 1 ≤ (i 1).val ∧ (i 1).val < win2_3.index _ (1 : Fin 2) * 1 + 1
    rw [e7]; omega

/-- THE ARRAY THE REGION LEAVES: the scaled, biased column of the arrays it finds. -/
theorem final (c : Dev nD) :
    (dat2 V c).arrAt 3 cfg2.N = scaledBiased (V c main_v39) (V c main_v15) (V c main_v17) :=
  (dat2 V c).arrAt_eq_of_cover 3 _ (fun t _ => flushed_eq V c t) (cover)

end

end Cert.KernelIdeal.Region2

end
-- ==== Proof.KernelValue.lean ====
/-
  The kernel program's result as one function of the argument arrays, and that function read at a node.

  Through @main's segments: the factor column, the bias row and the bias entry are laid out before the first kernel and
  never written again; the source and destination words likewise; each kernel leaves its result as a function of the
  arrays it finds (the three region modules); each host pass takes the previous kernel's result. Composed, the result
  array is the flattened third kernel of the second pass of the second kernel of the first pass of the first kernel.
  Read at node p it is the two-layer network in the arrangement that scales rows before a neighbourhood sum and the sum
  after it.
-/
import proofs.«148809_j14516989460622_2_alg».proof.Proof.KernelHost
import proofs.«148809_j14516989460622_2_alg».proof.Proof.Region0
import proofs.«148809_j14516989460622_2_alg».proof.Proof.Region1
import proofs.«148809_j14516989460622_2_alg».proof.Proof.Region2
import proofs.«148809_j14516989460622_2_alg».proof.Proof.LibKeepdims

set_option maxRecDepth 16384

noncomputable section

namespace Cert.KernelIdeal.KValue

open Cert.KernelIdeal Cert.KernelIdeal.Gen Cert.KernelIdeal.Stretch
open Idealize.ShloMosaic Idealize.ShloMosaic.TcCoe Idealize.ShloMosaic.ValueIdx Idealize.SL.Sem Idealize.ShloMosaic.StableHlo
open Cert.Interface

/-! ## Small layout readings -/

/-- A column flattened [a, 1] → [a]: element p is the column's row p. -/
theorem colAsVec_apply {α : Type} {a : Nat} (col : (⟨2, ![a, 1]⟩ : Shape).Idx → α)
    (h : (⟨2, ![a, 1]⟩ : Shape).ShapeCasts ⟨1, ![a]⟩) (p : Fin a) :
    shapeCast ⟨1, ![a]⟩ col h (ix1 p) = col (ix2 p (0 : Fin 1)) := by
  refine shapeCast_apply col h (ix1 p) (ix2 p (0 : Fin 1)) ?_
  rw [Shape.rowMajor_val_one, Shape.rowMajor_val_two]
  show p.val * 1 + 0 = p.val
  omega

/-- A vector laid out as a row [b] → [1, b]: entry (0, k) is the vector's element k. -/
theorem vecAsRow_apply {α : Type} {b : Nat} (v : (⟨1, ![b]⟩ : Shape).Idx → α)
    (h : (⟨1, ![b]⟩ : Shape).ShapeCasts ⟨2, ![1, b]⟩) (k : Fin b) :
    shapeCast ⟨2, ![1, b]⟩ v h (ix2 (0 : Fin 1) k) = v (ix1 k) := by
  refine shapeCast_apply v h (ix2 (0 : Fin 1) k) (ix1 k) ?_
  rw [Shape.rowMajor_val_one, Shape.rowMajor_val_two]
  show k.val = 0 * b + k.val
  omega

/-! ## The result as one function of the arrays -/

/-- The factor as a column. -/
def factorCol (x5 : (⟨Cert.ReferenceIdeal.S2x1600000, .i32⟩ : BufTy).Contents (Elt Ideal)) : S100000x1.Idx → EReal :=
  shapeCast S100000x1 (Cert.ReferenceIdeal.Read.val_main_v15 (F := Ideal) x5) shapeCasts_S100000_S100000x1

/-- The three kernels and the two host passes, composed. -/
def net (a0 : S100000x128.Idx → EReal) (a1 : S128x64.Idx → EReal) (a2 : S64.Idx → EReal) (a3 : S64x1.Idx → EReal)
    (a4 : S1.Idx → EReal) (x5 : (⟨Cert.ReferenceIdeal.S2x1600000, .i32⟩ : BufTy).Contents (Elt Ideal)) : S100000.Idx → EReal :=
  shapeCast S100000
    (Region2.scaledBiased
      (spread1 (Cert.ReferenceIdeal.Read.val_main_v6 (F := Ideal) x5) (Cert.ReferenceIdeal.Read.val_main_v3 (F := Ideal) x5)
        (Region1.scaledLayer
          (spread64 (Cert.ReferenceIdeal.Read.val_main_v6 (F := Ideal) x5) (Cert.ReferenceIdeal.Read.val_main_v3 (F := Ideal) x5)
            (Region0.scaledProduct a0 a1 (factorCol x5)))
          (factorCol x5) (shapeCast S1x64 a2 shapeCasts_S64_S1x64) a3))
      (factorCol x5) (shapeCast S1x1 a4 shapeCasts_S1_S1x1))
    shapeCasts_S100000x1_S100000

/-! ## Carrying buffers through the segment boundaries -/

section Carry
variable (m : (ℓ : Loc nD τ sig) → Buf (Elt Ideal) ℓ) (ρ : Dev nD → PrngReg) (c : Dev nD)

macro "not_written " ops:ident : tactic => `(tactic| exact List.forall_iff_forall_mem.mp (by
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A buffer no host operation before the first kernel writes holds its launch contents after the first stretch… -/
theorem keep1 (b : Ref sig .tc)
    (h0 : ∀ op ∈ (hostOps0 : List (HloOp τ sig (Elt Ideal))), Proc.devRef .tc b ∉ op.writes) :
    W1 m ρ c (Proc.devRef .tc b) = m ((c : Thread nD τ).loc b) :=
  (StableHlo.after_of_forall_not_mem (b := Proc.devRef .tc b) _ _ h0).trans rfl

/-- …after the selection… -/
theorem keep2 (b : Ref sig .tc)
    (h1 : ∀ op ∈ (hostOps0_1 : List (HloOp τ sig (Elt Ideal))), Proc.devRef .tc b ∉ op.writes) :
    W2 m ρ c (Proc.devRef .tc b) = W1 m ρ c (Proc.devRef .tc b) :=
  StableHlo.after_of_forall_not_mem (b := Proc.devRef .tc b) _ _ h1

/-- …and after the layouts. -/
theorem keep3 (b : Ref sig .tc)
    (h2 : ∀ op ∈ (hostOps0_2 : List (HloOp τ sig (Elt Ideal))), Proc.devRef .tc b ∉ op.writes) :
    W3 m ρ c (Proc.devRef .tc b) = W2 m ρ c (Proc.devRef .tc b) :=
  StableHlo.after_of_forall_not_mem (b := Proc.devRef .tc b) _ _ h2

theorem keep5 (b : Ref sig .tc)
    (h : ∀ op ∈ (hostOps1 : List (HloOp τ sig (Elt Ideal))), Proc.devRef .tc b ∉ op.writes) :
    W5 m ρ c (Proc.devRef .tc b) = W4 m ρ c (Proc.devRef .tc b) :=
  StableHlo.after_of_forall_not_mem (b := Proc.devRef .tc b) _ _ h

theorem keep7 (b : Ref sig .tc)
    (h : ∀ op ∈ (hostOps2 : List (HloOp τ sig (Elt Ideal))), Proc.devRef .tc b ∉ op.writes) :
    W7 m ρ c (Proc.devRef .tc b) = W6 m ρ c (Proc.devRef .tc b) :=
  StableHlo.after_of_forall_not_mem (b := Proc.devRef .tc b) _ _ h

/-- The source words at the first stretch's end, and from there to both passes. -/
theorem src1 : W1 m ρ c (Proc.devRef .tc main_v3)
    = Cert.ReferenceIdeal.Read.val_main_v3 (F := Ideal) (m ((c : Thread nD τ).loc main_arg5)) := first_src (W0 m ρ c)
theorem dst1 : W1 m ρ c (Proc.devRef .tc main_v6)
    = Cert.ReferenceIdeal.Read.val_main_v6 (F := Ideal) (m ((c : Thread nD τ).loc main_arg5)) := first_dst (W0 m ρ c)

theorem src4 : W4 m ρ c (Proc.devRef .tc main_v3)
    = Cert.ReferenceIdeal.Read.val_main_v3 (F := Ideal) (m ((c : Thread nD τ).loc main_arg5)) :=
  calc W4 m ρ c (Proc.devRef .tc main_v3) = W3 m ρ c (Proc.devRef .tc main_v3) := W4_of_ne m ρ c main_v3 (by decide)
    _ = W2 m ρ c (Proc.devRef .tc main_v3) := keep3 m ρ c main_v3 (by not_written hostOps0_2)
    _ = W1 m ρ c (Proc.devRef .tc main_v3) := keep2 m ρ c main_v3 (by not_written hostOps0_1)
    _ = _ := src1 m ρ c
theorem dst4 : W4 m ρ c (Proc.devRef .tc main_v6)
    = Cert.ReferenceIdeal.Read.val_main_v6 (F := Ideal) (m ((c : Thread nD τ).loc main_arg5)) :=
  calc W4 m ρ c (Proc.devRef .tc main_v6) = W3 m ρ c (Proc.devRef .tc main_v6) := W4_of_ne m ρ c main_v6 (by decide)
    _ = W2 m ρ c (Proc.devRef .tc main_v6) := keep3 m ρ c main_v6 (by not_written hostOps0_2)
    _ = W1 m ρ c (Proc.devRef .tc main_v6) := keep2 m ρ c main_v6 (by not_written hostOps0_1)
    _ = _ := dst1 m ρ c
theorem src6 : W6 m ρ c (Proc.devRef .tc main_v3)
    = Cert.ReferenceIdeal.Read.val_main_v3 (F := Ideal) (m ((c : Thread nD τ).loc main_arg5)) :=
  calc W6 m ρ c (Proc.devRef .tc main_v3) = W5 m ρ c (Proc.devRef .tc main_v3) := W6_of_ne m ρ c main_v3 (by decide)
    _ = W4 m ρ c (Proc.devRef .tc main_v3) := keep5 m ρ c main_v3 (by not_written hostOps1)
    _ = _ := src4 m ρ c
theorem dst6 : W6 m ρ c (Proc.devRef .tc main_v6)
    = Cert.ReferenceIdeal.Read.val_main_v6 (F := Ideal) (m ((c : Thread nD τ).loc main_arg5)) :=
  calc W6 m ρ c (Proc.devRef .tc main_v6) = W5 m ρ c (Proc.devRef .tc main_v6) := W6_of_ne m ρ c main_v6 (by decide)
    _ = W4 m ρ c (Proc.devRef .tc main_v6) := keep5 m ρ c main_v6 (by not_written hostOps1)
    _ = _ := dst4 m ρ c

/-- The factor column when the first kernel starts… -/
theorem factor3 : W3 m ρ c (Proc.devRef .tc main_v15) = factorCol (m ((c : Thread nD τ).loc main_arg5)) := by
  refine (factor_column (W2 m ρ c)).trans ?_
  refine congrArg (fun v => shapeCast S100000x1 v shapeCasts_S100000_S100000x1) ?_
  refine (where_factor (W1 m ρ c)).trans ?_
  have h12 : W1 m ρ c (Proc.devRef .tc main_v12)
      = Cert.ReferenceIdeal.Read.val_main_v13 (F := Ideal) (m ((c : Thread nD τ).loc main_arg5)) := first_positive (W0 m ρ c)
  have h13 : W1 m ρ c (Proc.devRef .tc main_v13)
      = Cert.ReferenceIdeal.Read.val_main_v14 (F := Ideal) (m ((c : Thread nD τ).loc main_arg5)) := first_rsqrt (W0 m ρ c)
  have hz : W1 m ρ c (Proc.devRef .tc main_cst_2) = Cert.ReferenceIdeal.Read.val_main_cst_2 (F := Ideal) := first_zero (W0 m ρ c)
  rw [h12, h13, hz]
  rfl

/-- …the second… -/
theorem factor5 : W5 m ρ c (Proc.devRef .tc main_v15) = factorCol (m ((c : Thread nD τ).loc main_arg5)) :=
  calc W5 m ρ c (Proc.devRef .tc main_v15) = W4 m ρ c (Proc.devRef .tc main_v15) := keep5 m ρ c main_v15 (by not_written hostOps1)
    _ = W3 m ρ c (Proc.devRef .tc main_v15) :=
        (W4_arr m ρ c 2).trans (((dat0 (V3 m ρ) c).arrAt_in 2 rfl _).trans (A_eq0 (V3 m ρ) c 2))
    _ = _ := factor3 m ρ c

/-- …and the third. -/
theorem factor7 : W7 m ρ c (Proc.devRef .tc main_v15) = factorCol (m ((c : Thread nD τ).loc main_arg5)) :=
  calc W7 m ρ c (Proc.devRef .tc main_v15) = W6 m ρ c (Proc.devRef .tc main_v15) := keep7 m ρ c main_v15 (by not_written hostOps2)
    _ = W5 m ρ c (Proc.devRef .tc main_v15) :=
        (W6_arr m ρ c 1).trans (((dat1 (V5 m ρ) c).arrAt_in 1 rfl _).trans (A_eq1 (V5 m ρ) c 1))
    _ = _ := factor5 m ρ c

/-- The first bias as a row when the second kernel starts. -/
theorem bias1_5 : W5 m ρ c (Proc.devRef .tc main_v16)
    = shapeCast S1x64 (m ((c : Thread nD τ).loc main_arg2)) shapeCasts_S64_S1x64 :=
  calc W5 m ρ c (Proc.devRef .tc main_v16) = W4 m ρ c (Proc.devRef .tc main_v16) := keep5 m ρ c main_v16 (by not_written hostOps1)
    _ = W3 m ρ c (Proc.devRef .tc main_v16) := W4_of_ne m ρ c main_v16 (by decide)
    _ = shapeCast S1x64 (W2 m ρ c (Proc.devRef .tc main_arg2)) shapeCasts_S64_S1x64 := bias1_row (W2 m ρ c)
    _ = _ := congrArg (fun v => shapeCast S1x64 v shapeCasts_S64_S1x64)
        ((keep2 m ρ c main_arg2 (by not_written hostOps0_1)).trans (keep1 m ρ c main_arg2 (by not_written hostOps0)))

/-- The second bias as one entry when the third kernel starts. -/
theorem bias2_7 : W7 m ρ c (Proc.devRef .tc main_v17)
    = shapeCast S1x1 (m ((c : Thread nD τ).loc main_arg4)) shapeCasts_S1_S1x1 :=
  calc W7 m ρ c (Proc.devRef .tc main_v17) = W6 m ρ c (Proc.devRef .tc main_v17) := keep7 m ρ c main_v17 (by not_written hostOps2)
    _ = W5 m ρ c (Proc.devRef .tc main_v17) := W6_of_ne m ρ c main_v17 (by decide)
    _ = W4 m ρ c (Proc.devRef .tc main_v17) := keep5 m ρ c main_v17 (by not_written hostOps1)
    _ = W3 m ρ c (Proc.devRef .tc main_v17) := W4_of_ne m ρ c main_v17 (by decide)
    _ = shapeCast S1x1 (W2 m ρ c (Proc.devRef .tc main_arg4)) shapeCasts_S1_S1x1 := bias2_entry (W2 m ρ c)
    _ = _ := congrArg (fun v => shapeCast S1x1 v shapeCasts_S1_S1x1)
        ((keep2 m ρ c main_arg4 (by not_written hostOps0_1)).trans (keep1 m ρ c main_arg4 (by not_written hostOps0)))

/-- An argument no stretch before the first kernel writes, at the first kernel's start. -/
theorem arg3_of (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 m ρ c (Proc.devRef .tc b) = m ((c : Thread nD τ).loc b) :=
  (keep3 m ρ c b h2).trans ((keep2 m ρ c b h1).trans (keep1 m ρ c b h0))

theorem x3 : W3 m ρ c (Proc.devRef .tc main_arg0) = m ((c : Thread nD τ).loc main_arg0) :=
  arg3_of m ρ c main_arg0 (by not_written hostOps0) (by not_written hostOps0_1) (by not_written hostOps0_2)
theorem w1_3 : W3 m ρ c (Proc.devRef .tc main_arg1) = m ((c : Thread nD τ).loc main_arg1) :=
  arg3_of m ρ c main_arg1 (by not_written hostOps0) (by not_written hostOps0_1) (by not_written hostOps0_2)
theorem w2_5 : W5 m ρ c (Proc.devRef .tc main_arg3) = m ((c : Thread nD τ).loc main_arg3) :=
  calc W5 m ρ c (Proc.devRef .tc main_arg3) = W4 m ρ c (Proc.devRef .tc main_arg3) := keep5 m ρ c main_arg3 (by not_written hostOps1)
    _ = W3 m ρ c (Proc.devRef .tc main_arg3) := W4_of_ne m ρ c main_arg3 (by decide)
    _ = _ := arg3_of m ρ c main_arg3 (by not_written hostOps0) (by not_written hostOps0_1) (by not_written hostOps0_2)

/-! ## The result array -/

/-- The first kernel's result. -/
theorem first_kernel : W4 m ρ c (Proc.devRef .tc main_v18)
    = Region0.scaledProduct (m ((c : Thread nD τ).loc main_arg0)) (m ((c : Thread nD τ).loc main_arg1))
        (factorCol (m ((c : Thread nD τ).loc main_arg5))) := by
  refine ((W4_arr m ρ c 3).trans (Region0.final (V3 m ρ) c)).trans ?_
  have e0 : V3 m ρ c main_arg0 = m ((c : Thread nD τ).loc main_arg0) := x3 m ρ c
  have e1 : V3 m ρ c main_arg1 = m ((c : Thread nD τ).loc main_arg1) := w1_3 m ρ c
  have e2 : V3 m ρ c main_v15 = factorCol (m ((c : Thread nD τ).loc main_arg5)) := factor3 m ρ c
  rw [e0, e1, e2]

/-- The second kernel's result. -/
theorem second_kernel : W6 m ρ c (Proc.devRef .tc main_v29)
    = Region1.scaledLayer
        (spread64 (Cert.ReferenceIdeal.Read.val_main_v6 (F := Ideal) (m ((c : Thread nD τ).loc main_arg5)))
          (Cert.ReferenceIdeal.Read.val_main_v3 (F := Ideal) (m ((c : Thread nD τ).loc main_arg5)))
          (Region0.scaledProduct (m ((c : Thread nD τ).loc main_arg0)) (m ((c : Thread nD τ).loc main_arg1))
            (factorCol (m ((c : Thread nD τ).loc main_arg5)))))
        (factorCol (m ((c : Thread nD τ).loc main_arg5)))
        (shapeCast S1x64 (m ((c : Thread nD τ).loc main_arg2)) shapeCasts_S64_S1x64)
        (m ((c : Thread nD τ).loc main_arg3)) := by
  refine ((W6_arr m ρ c 4).trans (Region1.final (V5 m ρ) c)).trans ?_
  have e0 : V5 m ρ c main_v28 = spread64 (W4 m ρ c (Proc.devRef .tc main_v6)) (W4 m ρ c (Proc.devRef .tc main_v3))
      (W4 m ρ c (Proc.devRef .tc main_v18)) := first_pass (W4 m ρ c)
  have e1 : V5 m ρ c main_v15 = factorCol (m ((c : Thread nD τ).loc main_arg5)) := factor5 m ρ c
  have e2 : V5 m ρ c main_v16 = shapeCast S1x64 (m ((c : Thread nD τ).loc main_arg2)) shapeCasts_S64_S1x64 := bias1_5 m ρ c
  have e3 : V5 m ρ c main_arg3 = m ((c : Thread nD τ).loc main_arg3) := w2_5 m ρ c
  rw [e0, e1, e2, e3, dst4 m ρ c, src4 m ρ c, first_kernel m ρ c]

/-- THE RESULT ARRAY is the composed function of the argument arrays as launched. -/
theorem result_eq : W9 m ρ c (Proc.devRef .tc main_v41)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (flattened (W8 m ρ c)).trans ?_
  refine congrArg (fun v => shapeCast S100000 v shapeCasts_S100000x1_S100000) ?_
  refine ((W8_arr m ρ c 3).trans (Region2.final (V7 m ρ) c)).trans ?_
  have e0 : V7 m ρ c main_v39 = spread1 (W6 m ρ c (Proc.devRef .tc main_v6)) (W6 m ρ c (Proc.devRef .tc main_v3))
      (W6 m ρ c (Proc.devRef .tc main_v29)) := second_pass (W6 m ρ c)
  have e1 : V7 m ρ c main_v15 = factorCol (m ((c : Thread nD τ).loc main_arg5)) := factor7 m ρ c
  have e2 : V7 m ρ c main_v17 = shapeCast S1x1 (m ((c : Thread nD τ).loc main_arg4)) shapeCasts_S1_S1x1 := bias2_7 m ρ c
  rw [e0, e1, e2, dst6 m ρ c, src6 m ρ c, second_kernel m ρ c]

end Carry

/-! ## The composed function read at a node -/

section Read
variable (a0 : S100000x128.Idx → EReal) (a1 : S128x64.Idx → EReal) (a2 : S64.Idx → EReal) (a3 : S64x1.Idx → EReal)
  (a4 : S1.Idx → EReal) (x5 : (⟨Cert.ReferenceIdeal.S2x1600000, .i32⟩ : BufTy).Contents (Elt Ideal))

theorem factorCol_apply (r : Fin 100000) : factorCol x5 (ix2 r (0 : Fin 1)) = factor x5 r :=
  Cert.Lib.Keepdims.castCol_apply _ shapeCasts_S100000_S100000x1 r

/-- The first kernel's entry (s, q): the linear map's entry times the factor of s. -/
theorem first_kernel_apply (s : Fin 100000) (q : Fin 64) :
    Region0.scaledProduct a0 a1 (factorCol x5) (ix2 s q)
      = Cert.Graph.lin1 (fun r j => a0 (ix2 r j)) (fun j k => a1 (ix2 j k)) s q * factor x5 s := by
  show (∑ k : Fin 128, a0 (ix2 s k) * a1 (ix2 k q)) * factorCol x5 (ix2 s (0 : Fin 1)) = _
  rw [factorCol_apply]
  rfl

/-- The first pass's entry (r, k): the plain neighbourhood sum of the scaled linear map. -/
theorem first_pass_apply (r : Fin 100000) (k : Fin 64) :
    spread64 (Cert.ReferenceIdeal.Read.val_main_v6 (F := Ideal) x5) (Cert.ReferenceIdeal.Read.val_main_v3 (F := Ideal) x5)
        (Region0.scaledProduct a0 a1 (factorCol x5)) (ix2 r k)
      = Cert.Graph.agg nNodes_pos (dstCol x5) (srcCol x5)
          (fun s q => Cert.Graph.lin1 (fun r j => a0 (ix2 r j)) (fun j k => a1 (ix2 j k)) s q * factor x5 s) r k :=
  (spread64_apply x5 _ r k).trans
    (congrArg (fun H => Cert.Graph.agg nNodes_pos (dstCol x5) (srcCol x5) H r k)
      (funext fun s => funext fun q => first_kernel_apply a0 a1 x5 s q))

/-- The second kernel's row r: the hidden layer against the weight column, times the factor of r. -/
theorem second_kernel_apply (r : Fin 100000) :
    Region1.scaledLayer
        (spread64 (Cert.ReferenceIdeal.Read.val_main_v6 (F := Ideal) x5) (Cert.ReferenceIdeal.Read.val_main_v3 (F := Ideal) x5)
          (Region0.scaledProduct a0 a1 (factorCol x5)))
        (factorCol x5) (shapeCast S1x64 a2 shapeCasts_S64_S1x64) a3 (ix2 r (0 : Fin 1))
      = (∑ k : Fin 64, Cert.Graph.hidScaled nNodes_pos (dstCol x5) (srcCol x5) (factor x5)
            (fun r j => a0 (ix2 r j)) (fun j k => a1 (ix2 j k)) (fun k => a2 (ix1 k)) rect r k * a3 (ix2 k (0 : Fin 1)))
          * factor x5 r := by
  show (∑ k : Fin 64, max (spread64 (Cert.ReferenceIdeal.Read.val_main_v6 (F := Ideal) x5)
            (Cert.ReferenceIdeal.Read.val_main_v3 (F := Ideal) x5) (Region0.scaledProduct a0 a1 (factorCol x5)) (ix2 r k)
          * factorCol x5 (ix2 r (0 : Fin 1)) + shapeCast S1x64 a2 shapeCasts_S64_S1x64 (ix2 (0 : Fin 1) k))
        (Ideal.ofBits .f32 0x00000000#32) * a3 (ix2 k (0 : Fin 1))) * factorCol x5 (ix2 r (0 : Fin 1)) = _
  rw [factorCol_apply]
  refine congrArg (· * factor x5 r) (Finset.sum_congr rfl fun k _ => ?_)
  rw [first_pass_apply, vecAsRow_apply]
  rfl

/-- THE RESULT READ AT NODE p: the network with rows scaled before each sum and the sum after it. -/
theorem net_apply (p : Fin 100000) :
    net a0 a1 a2 a3 a4 x5 (ix1 p)
      = Cert.Graph.outScaled nNodes_pos (dstCol x5) (srcCol x5) (factor x5)
          (fun r j => a0 (ix2 r j)) (fun j k => a1 (ix2 j k)) (fun k => a2 (ix1 k)) (fun k => a3 (ix2 k (0 : Fin 1)))
          (a4 (ix1 (0 : Fin 1))) rect p := by
  unfold net
  rw [colAsVec_apply]
  show spread1 (Cert.ReferenceIdeal.Read.val_main_v6 (F := Ideal) x5) (Cert.ReferenceIdeal.Read.val_main_v3 (F := Ideal) x5)
        (Region1.scaledLayer
          (spread64 (Cert.ReferenceIdeal.Read.val_main_v6 (F := Ideal) x5) (Cert.ReferenceIdeal.Read.val_main_v3 (F := Ideal) x5)
            (Region0.scaledProduct a0 a1 (factorCol x5)))
          (factorCol x5) (shapeCast S1x64 a2 shapeCasts_S64_S1x64) a3) (ix2 p (0 : Fin 1))
      * factorCol x5 (ix2 p (0 : Fin 1)) + shapeCast S1x1 a4 shapeCasts_S1_S1x1 (ix2 (0 : Fin 1) (0 : Fin 1)) = _
  rw [factorCol_apply, vecAsRow_apply, spread1_apply]
  unfold Cert.Graph.outScaled
  refine congrArg (fun H => Cert.Graph.agg nNodes_pos (dstCol x5) (srcCol x5) H p (0 : Fin 1) * factor x5 p + a4 (ix1 (0 : Fin 1))) ?_
  funext r u
  obtain rfl : u = 0 := Subsingleton.elim _ _
  exact second_kernel_apply a0 a1 a2 a3 x5 r

end Read

end Cert.KernelIdeal.KValue

end
-- ==== Proof.LibFlatSegments.lean ====
/-
  A flat array gathered and scattered by one column of index words, read at an index.

  `x[idx]` for a flat array `x : [N]` and indices `idx : [E]` (as `[E, 1]`): element `e` of the result is the element
  of `x` at the index `idx e`, read as a signed integer and clamped into `[0, N − 1]` — the same clamp a row gather of
  an `[N, C]` matrix applies, so a flat gather and a row gather by one index column select the same positions.
  `x.at[idx].add(v)` for flat `x : [N]`, `v : [E]` on the extended reals: element `p` ends at its initial value plus
  the sum of the updates whose index word, read signed, is `p` — the same landing condition a row scatter uses.
-/
import proofs.«148809_j14516989460622_2_alg».proof.Proof.LibScatterRows
import proofs.«148809_j14516989460622_2_alg».proof.Proof.LibGatherRows

noncomputable section

namespace Cert.LibFlatSegments

open Idealize.ShloMosaic Idealize.ShloMosaic.ValueIdx

variable {α : Type}

/-- The dimension numbers of a flat gather by a column of indices. -/
abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the element of `x` that index `e` selects. -/
theorem flat_gather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (GatherRows.clampRow N hN (idx (ix2 e 0)))) := by
  unfold Host.gather
  congr 1
  funext a
  refine Fin.ext ?_
  match a with
  | ⟨0, _⟩ =>
    show (flatDims N E wf).start (ix1 e) idx 0 + (flatDims N E wf).batchCoord (ix1 e) 0
      + (flatDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatDims N E wf).startIndexMap from List.mem_singleton.mpr rfl)]
    have hsi : (flatDims N E wf).siIdx (ix1 e) ⟨List.idxOf (0 : Fin 1) (flatDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- THE FLAT SEGMENT SUM READ AT `p`, on the extended reals: the operand's element plus the sum of the updates whose
    index word, read signed, is `p`. -/
theorem flat_scatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (p : Fin N) :
    Ideal.hostScatterAdd (ScatterRows.countDims N E wf) x idx upd (ix1 p)
      = x (ix1 p) + ∑ e : Fin E, if (idx (ix2 e 0)).toInt = (p.val : ℤ) then upd (ix1 e) else 0 := by
  unfold Ideal.hostScatterAdd
  congr 1
  rw [Finset.sum_filter, ScatterRows.sum_idx1]
  refine Finset.sum_congr rfl fun e _ => ?_
  simp only [ScatterRows.countDims_resultIdx?_eq_some]
  rfl

end Cert.LibFlatSegments

end
-- ==== Proof.LibTwoHot.lean ====
/-
  Linear interpolation between two neighbouring rows of a table, written as a sum over all the rows.

  A row of weights that holds a at position I, b at position I + 1 and zero everywhere else, multiplied entry by
  entry with a column v of S values and summed, is a * v(I) + b * v(I + 1): every other term is zero times a value,
  which is zero in any structure where zero annihilates (on the extended reals too, where 0 * (+inf) = 0), so no
  finiteness of v is needed. The position I is a 32-bit word read as a signed integer; the lemmas here say when such a
  word names a row of the table: a word clamped between 0 and hi by signed max and min lies in [0, hi]; a
  non-negative word is left alone by the "add S if negative" wrap of numpy-style indexing; and a word in [0, S - 1]
  is left alone by the clamp into [0, S - 1] that a gather applies to its start index.
-/
import Idealize.ShloMosaic.PureOps.Ideal
import Idealize.ShloMosaic.Lib.ValueIdx

noncomputable section

open scoped BigOperators

namespace Cert.Lib.TwoHot

open Idealize.ShloMosaic Idealize.ShloMosaic.ValueIdx

/-- The row of a table of S rows that an index word selects: the word read signed, clamped into [0, S - 1]. -/
def row (S : Nat) (hS : 0 < S) (J : BitVec 32) : Fin S := ⟨min J.toInt.toNat (S - 1), by omega⟩

/-- A word clamped by signed max against 0 and signed min against hi lies between 0 and hi, whatever it was. -/
theorem clamp_bounds (hi z : BitVec 32) (h : 0 ≤ hi.toInt) :
    0 ≤ (IntOp.minsi hi (IntOp.maxsi 0#32 z)).toInt ∧ (IntOp.minsi hi (IntOp.maxsi 0#32 z)).toInt ≤ hi.toInt := by
  have h0 : (0#32 : BitVec 32).toInt = 0 := rfl
  unfold IntOp.minsi IntOp.maxsi
  by_cases hz : z.slt 0#32 = true
  · rw [if_pos hz]
    by_cases h1 : hi.slt 0#32 = true
    · rw [if_pos h1]; exact ⟨h, le_refl _⟩
    · rw [if_neg h1, h0]; exact ⟨le_refl _, h⟩
  · rw [if_neg hz]
    have hz' : ¬ z.toInt < 0 := by
      intro hlt; apply hz; simp only [BitVec.slt, decide_eq_true_eq, h0]; exact hlt
    by_cases h1 : hi.slt z = true
    · rw [if_pos h1]; exact ⟨h, le_refl _⟩
    · rw [if_neg h1]
      have h1' : ¬ hi.toInt < z.toInt := by
        intro hlt; apply h1; simp only [BitVec.slt, decide_eq_true_eq]; exact hlt
      omega

/-- A non-negative word read signed is its unsigned value, below 2^31. -/
theorem toNat_of_nonneg (J : BitVec 32) (h : 0 ≤ J.toInt) : J.toInt = (J.toNat : Int) ∧ J.toNat < 2 ^ 31 := by
  have hlt : J.toNat < 2 ^ 32 := J.isLt
  rw [BitVec.toInt_eq_toNat_cond] at h ⊢
  by_cases hc : 2 * J.toNat < 2 ^ 32
  · rw [if_pos hc]; exact ⟨rfl, by omega⟩
  · rw [if_neg hc] at h; omega

/-- The successor word of a non-negative word below 2^31 - 1 is the successor. -/
theorem succ_toInt (J : BitVec 32) (h0 : 0 ≤ J.toInt) (h1 : J.toInt + 1 < 2 ^ 31) :
    (IntOp.addi J 1#32).toInt = J.toInt + 1 := by
  obtain ⟨e, _⟩ := toNat_of_nonneg J h0
  have hn : (IntOp.addi J 1#32).toNat = J.toNat + 1 := by
    show (J + 1#32).toNat = _
    rw [BitVec.toNat_add]
    show (J.toNat + 1) % 2 ^ 32 = _
    omega
  rw [BitVec.toInt_eq_toNat_cond, hn, if_pos (by omega), e]
  push_cast; ring

/-- A selection on "the two words are equal" is the selection on their equality. -/
theorem select_cmpi_eq {α : Type} (x y : BitVec 32) (a b : α) :
    Scalar.select (IntOp.cmpi .eq x y) a b = if x = y then a else b := by
  unfold Scalar.select IntOp.cmpi
  by_cases h : x = y
  · subst h; simp
  · rw [if_neg h]
    have : (x == y) = false := by simpa using h
    simp [this]

/-- The numpy-style wrap "if the index is negative add the extent" leaves a non-negative index alone. -/
theorem wrap_nonneg (J Sw : BitVec 32) (h0 : 0 ≤ J.toInt) :
    Scalar.select (IntOp.cmpi .slt J 0#32) (IntOp.addi J Sw) J = J := by
  unfold Scalar.select IntOp.cmpi
  have h00 : (0#32 : BitVec 32).toInt = 0 := rfl
  have : J.slt 0#32 = false := by
    simp only [BitVec.slt, decide_eq_false_iff_not, h00]; omega
  simp [this]

/-- The position word of a row counter below S (itself below 2^31) equals a non-negative word exactly when the
    counter is the word's value. -/
theorem ofNat_eq_iff (S : Nat) (hS : S ≤ 2 ^ 31) (j : Fin S) (J : BitVec 32) (h0 : 0 ≤ J.toInt) :
    BitVec.ofNat 32 j.val = J ↔ j.val = J.toInt.toNat := by
  obtain ⟨e, hJ⟩ := toNat_of_nonneg J h0
  have hj : j.val < 2 ^ 32 := by have := j.isLt; omega
  have e' : J.toInt.toNat = J.toNat := by rw [e]; exact Int.toNat_natCast _
  rw [e']
  constructor
  · intro h
    have := congrArg BitVec.toNat h
    rw [BitVec.toNat_ofNat, Nat.mod_eq_of_lt hj] at this
    exact this
  · intro h
    apply BitVec.eq_of_toNat_eq
    rw [BitVec.toNat_ofNat, Nat.mod_eq_of_lt hj]
    exact h

/-- THE TWO-HOT SUM. Weights a at position I, b at position I + 1 and zero elsewhere, against a column v of S
    values: the sum of the products is a * v(I) + b * v(I + 1), in any additive commutative monoid with a
    multiplication in which zero times anything is zero. The positions are compared as 32-bit words, as a kernel's iota against a
    broadcast index is. -/
theorem twoHot_sum {M : Type} [AddCommMonoid M] [Mul M] (hzero : ∀ x : M, 0 * x = 0) (S : Nat) (hS : 0 < S)
    (hS' : S ≤ 2 ^ 31) (I : BitVec 32) (h0 : 0 ≤ I.toInt) (h1 : I.toInt + 1 < S) (a b : M) (v : Fin S → M) :
    ∑ j : Fin S, Scalar.select (IntOp.cmpi .eq (BitVec.ofNat 32 j.val) I) a
        (Scalar.select (IntOp.cmpi .eq (BitVec.ofNat 32 j.val) (IntOp.addi I 1#32)) b 0) * v j
      = a * v (row S hS I) + b * v (row S hS (IntOp.addi I 1#32)) := by
  have hs : (IntOp.addi I 1#32).toInt = I.toInt + 1 := succ_toInt I h0 (by omega)
  have hr0 : (row S hS I).val = I.toInt.toNat := by
    show min I.toInt.toNat (S - 1) = _
    omega
  have hr1 : (row S hS (IntOp.addi I 1#32)).val = I.toInt.toNat + 1 := by
    show min (IntOp.addi I 1#32).toInt.toNat (S - 1) = _
    rw [hs]; omega
  have hne : row S hS I ≠ row S hS (IntOp.addi I 1#32) := fun h => by
    have := congrArg Fin.val h; rw [hr0, hr1] at this; omega
  have hterm : ∀ j : Fin S, Scalar.select (IntOp.cmpi .eq (BitVec.ofNat 32 j.val) I) a
        (Scalar.select (IntOp.cmpi .eq (BitVec.ofNat 32 j.val) (IntOp.addi I 1#32)) b 0) * v j
      = (if j = row S hS I then a * v (row S hS I) else 0)
        + (if j = row S hS (IntOp.addi I 1#32) then b * v (row S hS (IntOp.addi I 1#32)) else 0) := by
    intro j
    rw [select_cmpi_eq, select_cmpi_eq]
    have e0 : BitVec.ofNat 32 j.val = I ↔ j = row S hS I := by
      rw [ofNat_eq_iff S hS' j I h0, Fin.ext_iff, hr0]
    have e1 : BitVec.ofNat 32 j.val = IntOp.addi I 1#32 ↔ j = row S hS (IntOp.addi I 1#32) := by
      rw [ofNat_eq_iff S hS' j _ (by rw [hs]; omega), Fin.ext_iff, hr1, hs]
      constructor <;> intro h <;> omega
    by_cases c0 : j = row S hS I
    · rw [if_pos (e0.mpr c0), if_pos c0, if_neg (fun h => hne (c0.symm.trans h)), add_zero, c0]
    · rw [if_neg (fun h => c0 (e0.mp h)), if_neg c0, zero_add]
      by_cases c1 : j = row S hS (IntOp.addi I 1#32)
      · rw [if_pos (e1.mpr c1), if_pos c1, c1]
      · rw [if_neg (fun h => c1 (e1.mp h)), if_neg c1, hzero]
  rw [Finset.sum_congr rfl (fun j _ => hterm j), Finset.sum_add_distrib]
  simp only [Finset.sum_ite_eq', Finset.mem_univ, if_true]

end Cert.Lib.TwoHot

end
-- ==== Proof.RefValue.lean ====
/-
  The reference program read at a node.

  Its last stage, read at node p, is the two-layer normalised neighbourhood sum of the module Graph in the arrangement that
  scales every edge by the factors of its two endpoints: the segment sums are scatters by the destination column, the
  rows an edge brings are gathers by the wrapped source column, and the two endpoint factors are flat gathers of the
  per-node factor by the wrapped source and destination columns. The stages the program computes a second time for its
  second layer (the columns and the factor) are the same terms as the first ones.

  Also: the per-node factor where(deg > 0, rsqrt deg, 0) is a non-negative extended real other than +inf, and an edge
  whose destination word, read signed, is the node p has p as its wrapped, clamped destination.
-/
import proofs.«148809_j14516989460622_2_alg».proof.Proof.Interface
import proofs.«148809_j14516989460622_2_alg».proof.Proof.LibScatterHost
import proofs.«148809_j14516989460622_2_alg».proof.Proof.LibFlatSegments
import proofs.«148809_j14516989460622_2_alg».proof.Proof.LibTwoHot
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.Interface

/-! ## Index functions of the layout stages, at split indices -/

theorem idx_v10 (e : Fin 1700000) (c : Fin 1) : Read.idx_main_v10 (ix2 e c) = ix1 e := by
  funext a; match a with | ⟨0, _⟩ => rfl
theorem idx_v21 (e : Fin 1700000) (c : Fin 1) : Read.idx_main_v21 (ix2 e c) = ix1 e := by
  funext a; match a with | ⟨0, _⟩ => rfl
theorem idx_v28 (e : Fin 1700000) (c : Fin 1) : Read.idx_main_v28 (ix2 e c) = ix1 e := by
  funext a; match a with | ⟨0, _⟩ => rfl
theorem idx_v36 (e : Fin 1700000) (c : Fin 1) : Read.idx_main_v36 (ix2 e c) = ix1 e := by
  funext a; match a with | ⟨0, _⟩ => rfl
theorem idx_v38 (e : Fin 1700000) (c : Fin 1) : Read.idx_main_v38 (ix2 e c) = ix1 e := by
  funext a; match a with | ⟨0, _⟩ => rfl
theorem idx_v42 (e : Fin 1700000) (c : Fin 1) : Read.idx_main_v42 (ix2 e c) = ix1 e := by
  funext a; match a with | ⟨0, _⟩ => rfl
theorem idx_v51 (e : Fin 1700000) (c : Fin 1) : Read.idx_main_v51 (ix2 e c) = ix1 e := by
  funext a; match a with | ⟨0, _⟩ => rfl
theorem idx_v62 (e : Fin 1700000) (c : Fin 1) : Read.idx_main_v62 (ix2 e c) = ix1 e := by
  funext a; match a with | ⟨0, _⟩ => rfl
theorem idx_v69 (e : Fin 1700000) (c : Fin 1) : Read.idx_main_v69 (ix2 e c) = ix1 e := by
  funext a; match a with | ⟨0, _⟩ => rfl
theorem idx_v77 (e : Fin 1700000) (c : Fin 1) : Read.idx_main_v77 (ix2 e c) = ix1 e := by
  funext a; match a with | ⟨0, _⟩ => rfl
theorem idx_v79 (e : Fin 1700000) (c : Fin 1) : Read.idx_main_v79 (ix2 e c) = ix1 e := by
  funext a; match a with | ⟨0, _⟩ => rfl
theorem idx_v82 (e : Fin 1700000) (c : Fin 1) : Read.idx_main_v82 (ix2 e c) = ix1 e := by
  funext a; match a with | ⟨0, _⟩ => rfl

/-! ## The stages computed a second time are the first ones -/

theorem v36_eq (x5 : (⟨S2x1600000, .i32⟩ : BufTy).Contents (Elt Ideal)) :
    Read.val_main_v36 (F := Ideal) x5 = Read.val_main_v21 (F := Ideal) x5 := rfl
theorem v62_eq (x5 : (⟨S2x1600000, .i32⟩ : BufTy).Contents (Elt Ideal)) :
    Read.val_main_v62 (F := Ideal) x5 = Read.val_main_v21 (F := Ideal) x5 := rfl
theorem v77_eq (x5 : (⟨S2x1600000, .i32⟩ : BufTy).Contents (Elt Ideal)) :
    Read.val_main_v77 (F := Ideal) x5 = Read.val_main_v21 (F := Ideal) x5 := rfl
theorem v42_eq (x5 : (⟨S2x1600000, .i32⟩ : BufTy).Contents (Elt Ideal)) :
    Read.val_main_v42 (F := Ideal) x5 = Read.val_main_v10 (F := Ideal) x5 := rfl
theorem v82_eq (x5 : (⟨S2x1600000, .i32⟩ : BufTy).Contents (Elt Ideal)) :
    Read.val_main_v82 (F := Ideal) x5 = Read.val_main_v10 (F := Ideal) x5 := rfl
theorem v69_eq (x5 : (⟨S2x1600000, .i32⟩ : BufTy).Contents (Elt Ideal)) :
    Read.val_main_v69 (F := Ideal) x5 = Read.val_main_v28 (F := Ideal) x5 := rfl
theorem v56_eq (x5 : (⟨S2x1600000, .i32⟩ : BufTy).Contents (Elt Ideal)) :
    Read.val_main_v56 (F := Ideal) x5 = Read.val_main_v15 (F := Ideal) x5 := rfl

/-! ## The factor is tame -/

theorem factor_tame (x5 : (⟨S2x1600000, .i32⟩ : BufTy).Contents (Elt Ideal)) : Cert.Graph.Tame (factor x5) := by
  intro p
  show 0 ≤ Read.val_main_v15 (F := Ideal) x5 (ix1 p) ∧ Read.val_main_v15 (F := Ideal) x5 (ix1 p) ≠ ⊤
  rw [Read.val_main_v15_apply, Read.val_main_v13_apply, Read.val_main_v14_apply, Read.val_main_call0_v1_apply,
    Read.val_main_call0_v0_apply, Read.val_main_cst_2_apply, Read.val_main_v12_apply, Read.val_main_cst_1_apply,
    Ideal.cmpf_def, Ideal.hostUnary_rsqrt_def, Ideal.ofBits_def, Ideal.ofBits_zero_f32]
  exact Cert.Graph.where_rsqrt_tame _

/-! ## An edge landing on p has p as its wrapped, clamped destination -/

theorem lands_at_dst (x5 : (⟨S2x1600000, .i32⟩ : BufTy).Contents (Elt Ideal)) :
    Cert.Graph.LandsAtDst nNodes_pos (dstCol x5) (dstWrapCol x5) := by
  intro e p h
  have h10 : Read.val_main_v10 (F := Ideal) x5 (ix2 e 0) = Read.val_main_v6 (F := Ideal) x5 (ix1 e) := by
    rw [Read.val_main_v10_apply, idx_v10]
  have hw : (Read.val_main_v6 (F := Ideal) x5 (ix1 e)).toInt = (p.val : ℤ) := by
    rw [← h10]; exact h
  have h28 : Read.val_main_v28 (F := Ideal) x5 (ix2 e 0) = Read.val_main_v6 (F := Ideal) x5 (ix1 e) := by
    rw [Read.val_main_v28_apply, idx_v28, Read.val_main_v27_apply, Read.val_main_v24_apply, Read.val_main_v26_apply,
      Read.val_main_v23_apply, Read.val_main_c_4_apply]
    exact Cert.Lib.TwoHot.wrap_nonneg _ _ (by rw [hw]; exact Int.natCast_nonneg _)
  show GatherRows.clampRow nNodes nNodes_pos (Read.val_main_v28 (F := Ideal) x5 (ix2 e 0)) = p
  rw [h28]
  refine Fin.ext ?_
  show min (Read.val_main_v6 (F := Ideal) x5 (ix1 e)).toInt.toNat (nNodes - 1) = p.val
  rw [hw]
  have hp : p.val < 100000 := p.isLt
  show min ((p.val : ℤ)).toNat (100000 - 1) = p.val
  rw [Int.toNat_natCast]
  omega

/-! ## The gathers and scatters of the program, read at an index

Each record of the program is the general lemma's record at the literal extents. -/

/-- The flat gather of a per-node vector by a column of index words. -/
theorem flat_read (x : FVec Ideal S100000 .f32) (idx : IVec S1700000x1 32) (e : Fin 1700000) :
    Host.gather gather_S100000_S1700000x1_S1700000_n_0_n_n_0_1_1 x idx (ix1 e)
      = x (ix1 (GatherRows.clampRow nNodes nNodes_pos (idx (ix2 e 0)))) :=
  Cert.LibFlatSegments.flat_gather_apply (N := 100000) (E := 1700000) nNodes_pos
    Gen.gather_S100000_S1700000x1_S1700000_n_0_n_n_0_1_1_wf x idx e

/-- The gather of rows of 64 entries. -/
theorem rows64_read (x : FVec Ideal S100000x64 .f32) (idx : IVec S1700000x1 32) (e : Fin 1700000) (q : Fin 64) :
    Host.gather gather_S100000x64_S1700000x1_S1700000x64_1_0_n_n_0_1_164 x idx (ix2 e q)
      = x (ix2 (GatherRows.clampRow nNodes nNodes_pos (idx (ix2 e 0))) q) :=
  GatherRows.rows_gather_apply (N := 100000) (E := 1700000) (C := 64) nNodes_pos
    Gen.gather_S100000x64_S1700000x1_S1700000x64_1_0_n_n_0_1_164_wf x idx e q

/-- The gather of rows of one entry. -/
theorem rows1_read (x : FVec Ideal S100000x1 .f32) (idx : IVec S1700000x1 32) (e : Fin 1700000) (q : Fin 1) :
    Host.gather gather_S100000x1_S1700000x1_S1700000x1_1_0_n_n_0_1_11 x idx (ix2 e q)
      = x (ix2 (GatherRows.clampRow nNodes nNodes_pos (idx (ix2 e 0))) q) :=
  GatherRows.rows_gather_apply (N := 100000) (E := 1700000) (C := 1) nNodes_pos
    Gen.gather_S100000x1_S1700000x1_S1700000x1_1_0_n_n_0_1_11_wf x idx e q

/-- The segment sum of rows of 64 entries. -/
theorem scat64_read (x : FVec Ideal S100000x64 .f32) (idx : IVec S1700000x1 32) (upd : FVec Ideal S1700000x64 .f32)
    (p : Fin 100000) (q : Fin 64) :
    Host.scatterAdd scatter_S100000x64_S1700000x1_S1700000x64_1_0_0_1 x idx upd (ix2 p q)
      = x (ix2 p q) + ∑ e : Fin 1700000, if (idx (ix2 e 0)).toInt = (p.val : ℤ) then upd (ix2 e q) else 0 :=
  ScatterHost.rows_apply (N := 100000) (E := 1700000) (C := 64)
    Gen.scatter_S100000x64_S1700000x1_S1700000x64_1_0_0_1_wf x idx upd p q

/-- The segment sum of rows of one entry. -/
theorem scat1_read (x : FVec Ideal S100000x1 .f32) (idx : IVec S1700000x1 32) (upd : FVec Ideal S1700000x1 .f32)
    (p : Fin 100000) (q : Fin 1) :
    Host.scatterAdd scatter_S100000x1_S1700000x1_S1700000x1_1_0_0_1 x idx upd (ix2 p q)
      = x (ix2 p q) + ∑ e : Fin 1700000, if (idx (ix2 e 0)).toInt = (p.val : ℤ) then upd (ix2 e q) else 0 :=
  ScatterHost.rows_apply (N := 100000) (E := 1700000) (C := 1)
    Gen.scatter_S100000x1_S1700000x1_S1700000x1_1_0_0_1_wf x idx upd p q

/-! ## The stages of the first layer -/

/-- The edge's scale: the factors of its two endpoints. -/
theorem norm1_read (x5 : (⟨S2x1600000, .i32⟩ : BufTy).Contents (Elt Ideal)) (e : Fin 1700000) :
    Read.val_main_v30 (F := Ideal) x5 (ix1 e) = (factor x5 (GatherRows.clampRow nNodes nNodes_pos (srcCol x5 (ix2 e 0))) * factor x5 (GatherRows.clampRow nNodes nNodes_pos (dstWrapCol x5 (ix2 e 0)))) := by
  rw [Read.val_main_v30_apply, Ideal.mulf_def]
  unfold Read.val_main_v22 Read.val_main_v29
  rw [flat_read, flat_read]

/-- The same scale, computed again for the second layer. -/
theorem norm2_read (x5 : (⟨S2x1600000, .i32⟩ : BufTy).Contents (Elt Ideal)) (e : Fin 1700000) :
    Read.val_main_v71 (F := Ideal) x5 (ix1 e) = (factor x5 (GatherRows.clampRow nNodes nNodes_pos (srcCol x5 (ix2 e 0))) * factor x5 (GatherRows.clampRow nNodes nNodes_pos (dstWrapCol x5 (ix2 e 0)))) := by
  rw [Read.val_main_v71_apply, Ideal.mulf_def]
  unfold Read.val_main_v63 Read.val_main_v70
  rw [flat_read, flat_read, v56_eq, v62_eq, v69_eq]

/-- The first linear map. -/
theorem lin1_read (x0 : (⟨S100000x128, .f32⟩ : BufTy).Contents (Elt Ideal)) (x1 : (⟨S128x64, .f32⟩ : BufTy).Contents (Elt Ideal)) (r : Fin 100000) (q : Fin 64) :
    Read.val_main_v7 (F := Ideal) x0 x1 (ix2 r q) = (Cert.Graph.lin1 (fun r j => x0 (ix2 r j)) (fun j q => x1 (ix2 j q))) r q := by
  rw [Read.val_main_v7_apply]
  unfold Cert.Graph.lin1
  refine Finset.sum_congr rfl fun j _ => ?_
  have hl : Read.lidx_main_v7 (ix2 r q) j = ix2 r j := by
    funext a; match a with | ⟨0, _⟩ => rfl | ⟨1, _⟩ => rfl
  have hr : Read.ridx_main_v7 (ix2 r q) j = ix2 j q := by
    funext a; match a with | ⟨0, _⟩ => rfl | ⟨1, _⟩ => rfl
  rw [hl, hr]

/-- What an edge brings to the first segment sum: its source node's row, scaled. -/
theorem msg1_read (x0 : (⟨S100000x128, .f32⟩ : BufTy).Contents (Elt Ideal)) (x1 : (⟨S128x64, .f32⟩ : BufTy).Contents (Elt Ideal)) (x5 : (⟨S2x1600000, .i32⟩ : BufTy).Contents (Elt Ideal)) (e : Fin 1700000) (q : Fin 64) :
    Read.val_main_v40 (F := Ideal) x0 x1 x5 (ix2 e q) = (Cert.Graph.lin1 (fun r j => x0 (ix2 r j)) (fun j q => x1 (ix2 j q))) (GatherRows.clampRow nNodes nNodes_pos (srcCol x5 (ix2 e 0))) q * (factor x5 (GatherRows.clampRow nNodes nNodes_pos (srcCol x5 (ix2 e 0))) * factor x5 (GatherRows.clampRow nNodes nNodes_pos (dstWrapCol x5 (ix2 e 0)))) := by
  have h39 : Read.idx_main_v39 (ix2 e q) = ix2 e 0 := by
    funext a; match a with | ⟨0, _⟩ => rfl | ⟨1, _⟩ => rfl
  rw [Read.val_main_v40_apply, Ideal.mulf_def, Read.val_main_v39_apply, h39, Read.val_main_v38_apply, idx_v38, norm1_read]
  unfold Read.val_main_v37
  rw [rows64_read, lin1_read, v36_eq]

/-- The first segment sum. -/
theorem agg1_read (x0 : (⟨S100000x128, .f32⟩ : BufTy).Contents (Elt Ideal)) (x1 : (⟨S128x64, .f32⟩ : BufTy).Contents (Elt Ideal)) (x5 : (⟨S2x1600000, .i32⟩ : BufTy).Contents (Elt Ideal)) (r : Fin 100000) (q : Fin 64) :
    Read.val_main_v43 (F := Ideal) x0 x1 x5 (ix2 r q)
      = Cert.Graph.aggNorm nNodes_pos (dstCol x5) (srcCol x5) (dstWrapCol x5) (factor x5) (Cert.Graph.lin1 (fun r j => x0 (ix2 r j)) (fun j q => x1 (ix2 j q))) r q := by
  unfold Read.val_main_v43
  rw [scat64_read, Read.val_main_v41_apply, Read.val_main_cst_8_apply, Ideal.ofBits_def, Ideal.ofBits_zero_f32, zero_add, v42_eq]
  unfold Cert.Graph.aggNorm
  refine Finset.sum_congr rfl fun e _ => ?_
  rw [msg1_read]

/-- The hidden layer. -/
theorem hid_read (x0 : (⟨S100000x128, .f32⟩ : BufTy).Contents (Elt Ideal)) (x1 : (⟨S128x64, .f32⟩ : BufTy).Contents (Elt Ideal)) (x2 : (⟨S64, .f32⟩ : BufTy).Contents (Elt Ideal)) (x5 : (⟨S2x1600000, .i32⟩ : BufTy).Contents (Elt Ideal)) (r : Fin 100000) (k : Fin 64) :
    Read.val_main_v47 (F := Ideal) x0 x1 x2 x5 (ix2 r k)
      = Cert.Graph.hidNorm nNodes_pos (dstCol x5) (srcCol x5) (dstWrapCol x5) (factor x5)
          (fun r j => x0 (ix2 r j)) (fun j q => x1 (ix2 j q)) (fun k => x2 (ix1 k)) rect r k := by
  have h : Read.idx_main_v44 (Read.idx_main_v45 (ix2 r k)) = ix1 k := by
    funext a; match a with | ⟨0, _⟩ => rfl
  rw [Read.val_main_v47_apply, Ideal.maximumf_def, Read.val_main_call1_v0_apply, Read.val_main_call1_cst_apply, Ideal.ofBits_def,
    Read.val_main_v46_apply, Ideal.addf_def, agg1_read, Read.val_main_v45_apply, Read.val_main_v44_apply, h]
  rfl

/-! ## The stages of the second layer -/

/-- The second linear map. -/
theorem lin2_read (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64x1, .f32⟩ : BufTy).Contents (Elt Ideal)) (x5 : (⟨S2x1600000, .i32⟩ : BufTy).Contents (Elt Ideal)) (r : Fin 100000) :
    Read.val_main_v48 (F := Ideal) x0 x1 x2 x3 x5 (ix2 r 0)
      = ∑ k : Fin 64, Cert.Graph.hidNorm nNodes_pos (dstCol x5) (srcCol x5) (dstWrapCol x5) (factor x5)
          (fun r j => x0 (ix2 r j)) (fun j q => x1 (ix2 j q)) (fun k => x2 (ix1 k)) rect r k * x3 (ix2 k 0) := by
  rw [Read.val_main_v48_apply]
  refine Finset.sum_congr rfl fun k _ => ?_
  have hl : Read.lidx_main_v48 (ix2 r 0) k = ix2 r k := by
    funext a; match a with | ⟨0, _⟩ => rfl | ⟨1, _⟩ => rfl
  have hr : Read.ridx_main_v48 (ix2 r 0) k = ix2 k 0 := by
    funext a; match a with | ⟨0, _⟩ => rfl | ⟨1, _⟩ => rfl
  rw [hl, hr, hid_read]

/-- What an edge brings to the second segment sum. -/
theorem msg2_read (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64x1, .f32⟩ : BufTy).Contents (Elt Ideal)) (x5 : (⟨S2x1600000, .i32⟩ : BufTy).Contents (Elt Ideal)) (e : Fin 1700000) :
    Read.val_main_v80 (F := Ideal) x0 x1 x2 x3 x5 (ix2 e 0)
      = (∑ k : Fin 64, Cert.Graph.hidNorm nNodes_pos (dstCol x5) (srcCol x5) (dstWrapCol x5) (factor x5)
          (fun r j => x0 (ix2 r j)) (fun j q => x1 (ix2 j q)) (fun k => x2 (ix1 k)) rect (GatherRows.clampRow nNodes nNodes_pos (srcCol x5 (ix2 e 0))) k * x3 (ix2 k 0)) * (factor x5 (GatherRows.clampRow nNodes nNodes_pos (srcCol x5 (ix2 e 0))) * factor x5 (GatherRows.clampRow nNodes nNodes_pos (dstWrapCol x5 (ix2 e 0)))) := by
  rw [Read.val_main_v80_apply, Ideal.mulf_def, Read.val_main_v79_apply, idx_v79, norm2_read]
  unfold Read.val_main_v78
  rw [rows1_read, lin2_read, v77_eq]

/-! ## The result -/

theorem ref_value (x0 : (⟨S100000x128, .f32⟩ : BufTy).Contents (Elt Ideal)) (x1 : (⟨S128x64, .f32⟩ : BufTy).Contents (Elt Ideal))
    (x2 : (⟨S64, .f32⟩ : BufTy).Contents (Elt Ideal)) (x3 : (⟨S64x1, .f32⟩ : BufTy).Contents (Elt Ideal))
    (x4 : (⟨S1, .f32⟩ : BufTy).Contents (Elt Ideal)) (x5 : (⟨S2x1600000, .i32⟩ : BufTy).Contents (Elt Ideal)) (p : Fin nNodes) :
    Read.val_main_v87 (F := Ideal) x0 x1 x2 x3 x4 x5 (ix1 p)
      = Cert.Graph.outNorm nNodes_pos (dstCol x5) (srcCol x5) (dstWrapCol x5) (factor x5)
          (fun r j => x0 (ix2 r j)) (fun j q => x1 (ix2 j q)) (fun k => x2 (ix1 k)) (fun k => x3 (ix2 k 0)) (x4 (ix1 0)) rect p := by
  have h87 : Read.idx_main_v87 (ix1 p) = ix2 p 0 := by
    funext a
    match a with
    | ⟨0, _⟩ => exact Fin.ext (Nat.div_one _)
    | ⟨1, _⟩ => rfl
  have h84 : Read.idx_main_v84 (Read.idx_main_v85 (ix2 p 0)) = ix1 0 := by
    funext a; match a with | ⟨0, _⟩ => rfl
  rw [Read.val_main_v87_apply, h87, Read.val_main_v86_apply, Ideal.addf_def, Read.val_main_v85_apply, Read.val_main_v84_apply, h84]
  unfold Read.val_main_v83
  rw [scat1_read, Read.val_main_v81_apply, Read.val_main_cst_19_apply, Ideal.ofBits_def, Ideal.ofBits_zero_f32, zero_add, v82_eq]
  unfold Cert.Graph.outNorm Cert.Graph.aggNorm
  refine congrArg₂ (· + ·) (Finset.sum_congr rfl fun e _ => ?_) rfl
  rw [msg2_read]

end Cert.ReferenceIdeal.RefValue

end
-- ==== Proof.lean ====
/-
  A two-layer graph convolution, out = Â · relu(Â · (x · W1) + b1) · W2 + b2 with Â = D^(-1/2) (A + I) D^(-1/2), over
  100000 nodes and 1600000 listed edges plus one loop per node, D the in-degree count.

  The reference scales every edge's message by dinv[src] · dinv[dst] before summing the messages into their destination
  rows. The kernel program scales the rows of x · W1 by dinv once (first kernel), gathers and sums the scaled rows on
  the host, and scales the sum at each node by dinv again while adding the bias, rectifying and multiplying by W2
  (second kernel); the second layer repeats this with the one-column matrix, the last scaling and bias in the third
  kernel. The two agree on the extended reals because dinv = where(deg > 0, rsqrt deg, 0) is a non-negative extended
  real other than +inf at every node, whatever the degree reads as, so multiplying by it distributes over the sum of the
  messages, and because an edge summed into row p has p as its (wrapped, clamped) destination, so its second factor is
  dinv[p]. No entry of x, of the weights or of the biases needs to be finite for this: the precondition is not opened.

  Here: the frames of the two kernel programs (generated), the reference's frame (its run with the result dropped),
  the empty idealization ledger, and the value claim — the kernel program's result array as one function of the
  arguments (KernelValue) and the reference's (RefValue) read at a node and joined by the law (Graph).
-/
import proofs.«148809_j14516989460622_2_alg».proof.Defs
import proofs.«148809_j14516989460622_2_alg».proof.Proof.Gen.Kernel
import proofs.«148809_j14516989460622_2_alg».proof.Proof.Gen.Kernel.Skeleton
import proofs.«148809_j14516989460622_2_alg».proof.Proof.Gen.Kernel.Launch
import proofs.«148809_j14516989460622_2_alg».proof.Proof.Gen.Kernel.Points
import proofs.«148809_j14516989460622_2_alg».proof.Proof.Gen.Kernel.Frame
import proofs.«148809_j14516989460622_2_alg».proof.Proof.Gen.KernelIdeal
import proofs.«148809_j14516989460622_2_alg».proof.Proof.Gen.KernelIdeal.Skeleton
import proofs.«148809_j14516989460622_2_alg».proof.Proof.Gen.KernelIdeal.Launch
import proofs.«148809_j14516989460622_2_alg».proof.Proof.Gen.KernelIdeal.Points
import proofs.«148809_j14516989460622_2_alg».proof.Proof.Gen.KernelIdeal.Frame
import proofs.«148809_j14516989460622_2_alg».proof.Proof.Gen.ReferenceIdeal
import proofs.«148809_j14516989460622_2_alg».proof.Proof.Gen.Pre_finite_inputs
import proofs.«148809_j14516989460622_2_alg».proof.Proof.KernelRun
import proofs.«148809_j14516989460622_2_alg».proof.Proof.KernelValue
import proofs.«148809_j14516989460622_2_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same result array: the kernel program's is the composed function of its arguments, the
    reference's its last stage of arguments that agree, and at every node the two are the network in its two
    arrangements, equal by the law. -/
theorem algebraic : Cert.algebraic_KernelIdeal_ReferenceIdeal := by
  intro m ρ m' ρ' _ hagree
  refine ⟨fun c => Cert.KernelIdeal.KValue.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.result_eq m ρ c), (h c).2⟩)
      (Cert.KernelIdeal.Result.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := hagree c
    rw [Cert.ReferenceIdeal.Read.val_main_v87_eq, h0, h1, h2, h3, h4, h5]
    refine funext fun i => ?_
    obtain ⟨p, rfl⟩ : ∃ p : Fin 100000, i = ix1 p := ⟨i 0, eq_ix1 i⟩
    show Cert.ReferenceIdeal.Read.val_main_v87 (F := Ideal) _ _ _ _ _ _ (ix1 p)
      = Cert.KernelIdeal.KValue.net _ _ _ _ _ _ (ix1 p)
    rw [Cert.ReferenceIdeal.RefValue.ref_value, Cert.KernelIdeal.KValue.net_apply]
    exact (Cert.Graph.outScaled_eq_outNorm _ _ _ _ _ _ _ _ _ _ _
      (Cert.ReferenceIdeal.RefValue.factor_tame _) (Cert.ReferenceIdeal.RefValue.lands_at_dst _) p).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
